-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096x4 : Shape := ⟨3, ![8, 4096, 4]⟩
abbrev S100x512 : Shape := ⟨2, ![100, 512]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4096x4 : S_.BroadcastsInDim S8x4096x4 (![] : Fin 0 → Fin S8x4096x4.rank)
  reducesTo_S8x4096x4_S_d0_1_2 : S8x4096x4.ReducesTo [0, 1, 2] S_
  bcast_S_S100x512 : S_.BroadcastsInDim S100x512 (![] : Fin 0 → Fin S100x512.rank)
  reducesTo_S100x512_S_d0_1 : S100x512.ReducesTo [0, 1] S_

variable [Facts]

def fn_part1 {F : FTy → Type} [FloatOps F] (main_v13 : IVec S_ 1) (main_v16 : IVec S100x512 1) : IVec S_ 1 :=
  let main_c_5 : IVec S_ 1 := constantI S_ 1 1#1
  let main_v17 : IVec S_ 1 := (fun x v => Host.reduce IntOp.andi x v reducesTo_S100x512_S_d0_1 h_S_) main_v16 main_c_5
  let main_v18 : IVec S_ 1 := andi main_v13 main_v17
  main_v18

def fn {F : FTy → Type} [FloatOps F] (main_arg0 : FVec F S8x4096x1024 .f32) (main_arg1 : FVec F S8x4096x4 .f32) (main_arg2 : FVec F S100x512 .f32) (main_arg3 : FVec F S100x512 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x4 .f32 := Host.absf main_arg1
  let main_cst_0 : FVec F S_ .f32 := constant S_ .f32 0x7F800000#32
  let main_v5 : FVec F S8x4096x4 .f32 := broadcastInDim S8x4096x4 ![] bcast_S_S8x4096x4 main_cst_0
  let main_v6 : IVec S8x4096x4 1 := cmpf .olt main_v4 main_v5
  let main_c_1 : IVec S_ 1 := constantI S_ 1 1#1
  let main_v7 : IVec S_ 1 := (fun x v => Host.reduce IntOp.andi x v reducesTo_S8x4096x4_S_d0_1_2 h_S_) main_v6 main_c_1
  let main_v8 : IVec S_ 1 := andi main_v3 main_v7
  let main_v9 : FVec F S100x512 .f32 := Host.absf main_arg2
  let main_cst_2 : FVec F S_ .f32 := constant S_ .f32 0x7F800000#32
  let main_v10 : FVec F S100x512 .f32 := broadcastInDim S100x512 ![] bcast_S_S100x512 main_cst_2
  let main_v11 : IVec S100x512 1 := cmpf .olt main_v9 main_v10
  let main_c_3 : IVec S_ 1 := constantI S_ 1 1#1
  let main_v12 : IVec S_ 1 := (fun x v => Host.reduce IntOp.andi x v reducesTo_S100x512_S_d0_1 h_S_) main_v11 main_c_3
  let main_v13 : IVec S_ 1 := andi main_v8 main_v12
  let main_v14 : FVec F S100x512 .f32 := Host.absf main_arg3
  let main_cst_4 : FVec F S_ .f32 := constant S_ .f32 0x7F800000#32
  let main_v15 : FVec F S100x512 .f32 := broadcastInDim S100x512 ![] bcast_S_S100x512 main_cst_4
  let main_v16 : IVec S100x512 1 := cmpf .olt main_v14 main_v15
  fn_part1 (F := F) main_v13 main_v16
-- ==== Kernel.lean ====
abbrev S8x4096x1024 : Shape := ⟨3, ![8, 4096, 1024]⟩
abbrev S8x4096x4 : Shape := ⟨3, ![8, 4096, 4]⟩
abbrev S100x512 : Shape := ⟨2, ![100, 512]⟩
abbrev S32768x1024 : Shape := ⟨2, ![32768, 1024]⟩
abbrev S32768x4 : Shape := ⟨2, ![32768, 4]⟩
abbrev S_ : Shape := ⟨0, ![]⟩
abbrev S128x512 : Shape := ⟨2, ![128, 512]⟩
abbrev S1 : Shape := ⟨1, ![1]⟩
abbrev S2048x4 : Shape := ⟨2, ![2048, 4]⟩
abbrev S2048x1024 : Shape := ⟨2, ![2048, 1024]⟩
abbrev S2048x1 : Shape := ⟨2, ![2048, 1]⟩
abbrev S2048 : Shape := ⟨1, ![2048]⟩
abbrev S1x128 : Shape := ⟨2, ![1, 128]⟩
abbrev S2048x128 : Shape := ⟨2, ![2048, 128]⟩
abbrev S2048x512 : Shape := ⟨2, ![2048, 512]⟩

abbrev nBuf : Space → Nat
  | .hbm => 26
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4, .f32⟩
  | .hbm, ⟨2, _⟩ => ⟨S100x512, .f32⟩
  | .hbm, ⟨3, _⟩ => ⟨S100x512, .f32⟩
  | .hbm, ⟨4, _⟩ => ⟨S32768x1024, .f32⟩
  | .hbm, ⟨5, _⟩ => ⟨S32768x4, .f32⟩
  | .hbm, ⟨6, _⟩ => ⟨S_, .f32⟩
  | .hbm, ⟨7, _⟩ => ⟨S128x512, .f32⟩
  | .hbm, ⟨8, _⟩ => ⟨S_, .i32⟩
  | .hbm, ⟨9, _⟩ => ⟨S1, .i32⟩
  | .hbm, ⟨10, _⟩ => ⟨S128x512, .f32⟩
  | .hbm, ⟨11, _⟩ => ⟨S_, .f32⟩
  | .hbm, ⟨12, _⟩ => ⟨S128x512, .f32⟩
  | .hbm, ⟨13, _⟩ => ⟨S_, .i32⟩
  | .hbm, ⟨14, _⟩ => ⟨S1, .i32⟩
  | .hbm, ⟨15, _⟩ => ⟨S128x512, .f32⟩
  | .hbm, ⟨16, _⟩ => ⟨S128x512, .bf16⟩
  | .hbm, ⟨17, _⟩ => ⟨S128x512, .f32⟩
  | .hbm, ⟨18, _⟩ => ⟨S128x512, .f32⟩
  | .hbm, ⟨19, _⟩ => ⟨S128x512, .bf16⟩
  | .hbm, ⟨20, _⟩ => ⟨S128x512, .bf16⟩
  | .hbm, ⟨21, _⟩ => ⟨S128x512, .f32⟩
  | .hbm, ⟨22, _⟩ => ⟨S128x512, .f32⟩
  | .hbm, ⟨23, _⟩ => ⟨S128x512, .bf16⟩
  | .hbm, ⟨24, _⟩ => ⟨S32768x1024, .f32⟩
  | .hbm, ⟨25, _⟩ => ⟨S8x4096x1024, .f32⟩
  | .local _ .vmem, ⟨0, _⟩ => ⟨S2048x4, .f32⟩
  | .local _ .vmem, ⟨1, _⟩ => ⟨S2048x4, .f32⟩
  | .local _ .vmem, ⟨2, _⟩ => ⟨S2048x1024, .f32⟩
  | .local _ .vmem, ⟨3, _⟩ => ⟨S2048x1024, .f32⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S2048x1024, .f32⟩
  | .local _ .vmem, ⟨9, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  shapeCasts_S8x4096x4_S32768x4 : S8x4096x4.ShapeCasts S32768x4
  bcast_S_S128x512 : S_.BroadcastsInDim S128x512 (![] : Fin 0 → Fin S128x512.rank)
  bcast_S_S1 : S_.BroadcastsInDim S1 (![] : Fin 0 → Fin S1.rank)
  bitsLt_bf16_f32 : FTy.bits .bf16 < FTy.bits .f32
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  slices_S2048x4_o0_1_S2048x1 : S2048x4.Slices ![0, 1] S2048x1
  shapeCasts_S2048x1_S2048 : S2048x1.ShapeCasts S2048
  slices_S2048x4_o0_3_S2048x1 : S2048x4.Slices ![0, 3] S2048x1
  slices_S2048x4_o0_0_S2048x1 : S2048x4.Slices ![0, 0] S2048x1
  slices_S2048x4_o0_2_S2048x1 : S2048x4.Slices ![0, 2] S2048x1
  iota_S1x128_d1_w32 : S1x128.Iotas .tc 32 [1]
  shapeCasts_S2048_S2048x1 : S2048.ShapeCasts S2048x1
  broadcasts_S2048x1_S2048x128 : S2048x1.Broadcasts S2048x128
  broadcasts_S1x128_S2048x128 : S1x128.Broadcasts S2048x128
  natLt_1_32 : 1 < 32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S2048x1024_o0_0_S2048x512 : S2048x1024.Slices ![0, 0] S2048x512
  inb_S2048x1024_S2048x512_0_0 : ∀ a, (![0, 0] : Fin 2 → Nat) a + S2048x512.size a ≤ S2048x1024.size a
  h_S2048x512 : 0 < S2048x512.numel
  slices_S2048x1024_o0_512_S2048x512 : S2048x1024.Slices ![0, 512] S2048x512
  inb_S2048x1024_S2048x512_0_512 : ∀ a, (![0, 512] : Fin 2 → Nat) a + S2048x512.size a ≤ S2048x1024.size a
  shapeCasts_S32768x1024_S8x4096x1024 : S32768x1024.ShapeCasts S8x4096x1024
  scatter_S128x512_S1_S100x512_01_n_0_0_wf : ScatterDims.WF S128x512 S1 S100x512 [0, 1] [] [0] 0
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S32768x4.size a
  hwx0_0 : ∀ i : grid0.Coords, EltTy.bits .f32 = 32 ∨ (Rect.block (s := S32768x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .f32 = 32 ∨ (Rect.block (s := S32768x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S32768x1024.size a
  hwx0_6 : ∀ i : grid0.Coords, EltTy.bits .f32 = 32 ∨ (Rect.block (s := S32768x1024) S2048x1024.size (cc0_transform_6 i) (hinb0_6 i)).WholeWords (EltTy.packing .f32)

variable [Facts₀]

def scatter_S128x512_S1_S100x512_01_n_0_0 : ScatterDims S128x512 S1 S100x512 where
  updateWindowDims := [0, 1]
  insertedWindowDims := []
  scatterDimsToOperandDims := [0]
  indexVectorDim := 0
  wf := scatter_S128x512_S1_S100x512_01_n_0_0_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_v1) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096x4 : Shape := ⟨3, ![8, 4096, 4]⟩
abbrev S100x512 : Shape := ⟨2, ![100, 512]⟩
abbrev S8x4096x1 : Shape := ⟨3, ![8, 4096, 1]⟩
abbrev S8x4096 : Shape := ⟨2, ![8, 4096]⟩
abbrev S_ : Shape := ⟨0, ![]⟩
abbrev S8x4096x512 : Shape := ⟨3, ![8, 4096, 512]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4, .f32⟩
  | .hbm, ⟨2, _⟩ => ⟨S100x512, .f32⟩
  | .hbm, ⟨3, _⟩ => ⟨S100x512, .f32⟩
  | .hbm, ⟨4, _⟩ => ⟨S8x4096x1, .f32⟩
  | .hbm, ⟨5, _⟩ => ⟨S8x4096, .f32⟩
  | .hbm, ⟨6, _⟩ => ⟨S8x4096x1, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S8x4096, .i32⟩
  | .hbm, ⟨16, _⟩ => ⟨S8x4096x1, .f32⟩
  | .hbm, ⟨17, _⟩ => ⟨S8x4096, .f32⟩
  | .hbm, ⟨18, _⟩ => ⟨S8x4096x1, .f32⟩
  | .hbm, ⟨19, _⟩ => ⟨S8x4096, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S8x4096, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S8x4096, .i32⟩
  | .hbm, ⟨32, _⟩ => ⟨S8x4096, .i32⟩
  | .hbm, ⟨33, _⟩ => ⟨S_, .i32⟩
  | .hbm, ⟨34, _⟩ => ⟨S8x4096, .i32⟩
  | .hbm, ⟨35, _⟩ => ⟨S8x4096, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S8x4096, .i32⟩
  | .hbm, ⟨40, _⟩ => ⟨S8x4096, .i32⟩
  | .hbm, ⟨41, _⟩ => ⟨S_, .i32⟩
  | .hbm, ⟨42, _⟩ => ⟨S8x4096, .i32⟩
  | .hbm, ⟨43, _⟩ => ⟨S8x4096, .i32⟩
  | .hbm, ⟨44, _⟩ => ⟨S_, .i32⟩
  | .hbm, ⟨45, _⟩ => ⟨S8x4096, .i32⟩
  | .hbm, ⟨46, _⟩ => ⟨S8x4096, .i1⟩
  | .hbm, ⟨47, _⟩ => ⟨S_, .i32⟩
  | .hbm, ⟨48, _⟩ => ⟨S8x4096, .i32⟩
  | .hbm, ⟨49, _⟩ => ⟨S8x4096, .i32⟩
  | .hbm, ⟨50, _⟩ => ⟨S8x4096, .i32⟩
  | .hbm, ⟨51, _⟩ => ⟨S8x4096x1, .i32⟩
  | .hbm, ⟨52, _⟩ => ⟨S8x4096x512, .f32⟩
  | .hbm, ⟨53, _⟩ => ⟨S_, .i32⟩
  | .hbm, ⟨54, _⟩ => ⟨S8x4096, .i32⟩
  | .hbm, ⟨55, _⟩ => ⟨S8x4096, .i1⟩
  | .hbm, ⟨56, _⟩ => ⟨S_, .i32⟩
  | .hbm, ⟨57, _⟩ => ⟨S8x4096, .i32⟩
  | .hbm, ⟨58, _⟩ => ⟨S8x4096, .i32⟩
  | .hbm, ⟨59, _⟩ => ⟨S8x4096, .i32⟩
  | .hbm, ⟨60, _⟩ => ⟨S8x4096x1, .i32⟩
  | .hbm, ⟨61, _⟩ => ⟨S8x4096x512, .f32⟩
  | .hbm, ⟨62, _⟩ => ⟨S8x4096x1024, .f32⟩
  | .hbm, ⟨63, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_c_4 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_c_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]

class Facts₀ : Prop where
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_2 : S8x4096x4.Slices ![0, 0, 2] S8x4096x1
  bcast_S_S8x4096 : S_.BroadcastsInDim S8x4096 (![] : Fin 0 → Fin S8x4096.rank)
  slices_S8x4096x4_S8x4096x1_0_0_1 : S8x4096x4.Slices ![0, 0, 1] S8x4096x1
  slices_S8x4096x4_S8x4096x1_0_0_3 : S8x4096x4.Slices ![0, 0, 3] S8x4096x1
  bcast_S8x4096_S8x4096x1_0_1 : S8x4096.BroadcastsInDim S8x4096x1 (![0, 1] : Fin 2 → Fin S8x4096x1.rank)
  concatenates_S8x4096x512_S8x4096x512_S8x4096x1024_d2 : Shape.Concatenates [S8x4096x512, S8x4096x512] S8x4096x1024 2
  gather_S100x512_S8x4096x1_S8x4096x512_2_0_n_n_0_2_1512_wf : GatherDims.WF S100x512 S8x4096x1 S8x4096x512 [2] [0] [] [0] [] 2 ![1, 512]

variable [Facts₀]

def gather_S100x512_S8x4096x1_S8x4096x512_2_0_n_n_0_2_1512 : GatherDims S100x512 S8x4096x1 S8x4096x512 where
  offsetDims := [2]
  collapsedSliceDims := [0]
  operandBatchingDims := []
  startIndicesBatchingDims := []
  startIndexMap := [0]
  indexVectorDim := 2
  sliceSizes := ![1, 512]
  wf := gather_S100x512_S8x4096x1_S8x4096x512_2_0_n_n_0_2_1512_wf

class Facts : Prop extends Facts₀ where

variable [Facts]
-- ==== Proof.Spec.lean ====
/-
  The function both programs compute, and the two facts about extended reals and 32-bit words that join them.

  A box (x0, y0, x1, y1) names a row of each table: its centre ((x0 + x1)/2, (y0 + y1)/2), scaled by 99, is truncated to a
  signed 32-bit integer and clamped into [0, 99]. The result adds to entry (b, s, c) of the input the entry of the height
  table in the row the y-centre names (columns below 512) or of the width table in the row the x-centre names (the other
  columns, shifted by 512).

  One program looks the row up; the other multiplies a row of indicators (1 where the lane number equals the row number,
  0 elsewhere) into the table, twice: once into the table itself and once into the difference of the table with
  itself. Over the extended reals a sum of indicators times entries is the entry the indicators select (0 * t = 0 for
  every t, infinite ones included), and t - t = 0 for a real t, so the two agree wherever the selected entries are real.
-/
import Idealize.ShloMosaic.PureOps.Ideal
import Idealize.ShloMosaic.PureOps.Ideal.Laws
import Idealize.ShloMosaic.Lib.ValueIdx
import Idealize.ShloMosaic.Lib.WordArith
import Idealize.ShloMosaic.Lib.Affine

noncomputable section

open scoped BigOperators

namespace Cert.Spec

open Idealize.ShloMosaic Idealize.ShloMosaic.ValueIdx

/-- Half the sum of two coordinates, scaled by 99: (a + b) * (1/2) * 99, the constants as their binary patterns. -/
def centre (a b : EReal) : EReal :=
  (a + b) * Ideal.ofBits .f32 0x3F000000#32 * Ideal.ofBits .f32 0x42C60000#32

/-- The row a pair of coordinates names: the scaled centre truncated to a signed word, then clamped into [0, 99]
    (first from below by 0, then from above by 99). -/
def cell (a b : EReal) : BitVec 32 :=
  IntOp.minsi 99#32 (IntOp.maxsi 0#32 (FloatOps.fptosi (F := Ideal) (φ := .f32) 32 (centre a b)))

/-- Whatever word is clamped, the result read as a natural is below 100. -/
theorem clamp_lt (z : BitVec 32) : (IntOp.minsi 99#32 (IntOp.maxsi 0#32 z)).toNat < 100 := by
  have h1 : (IntOp.maxsi 0#32 z).toNat < 2 ^ 31 := by
    rw [WordArith.toNat_maxsi_zero]
    have := BitVec.two_mul_toInt_lt (x := z)
    omega
  rw [WordArith.toNat_minsi_of_lt 99#32 _ (by decide) h1]
  have : (99#32 : BitVec 32).toNat = 99 := by decide
  omega

theorem cell_lt (a b : EReal) : (cell a b).toNat < 100 := clamp_lt _

/-- The row as an index of a table with 100 rows. -/
def row (a b : EReal) : Fin 100 := ⟨(cell a b).toNat, cell_lt a b⟩

/-- A word below 2^31 read signed is the natural it is read as unsigned. -/
theorem toInt_of_lt (w : BitVec 32) (h : w.toNat < 2147483648) : w.toInt = (w.toNat : Int) :=
  BitVec.toInt_eq_toNat_of_lt (by omega)

theorem cell_toInt (a b : EReal) : (cell a b).toInt = ((row a b).val : Int) :=
  toInt_of_lt _ (by have := cell_lt a b; omega)

/-- The result at entry (b, s, c). -/
def Gc (x : (⟨3, ![8, 4096, 1024]⟩ : Shape).Idx → EReal) (bx : (⟨3, ![8, 4096, 4]⟩ : Shape).Idx → EReal)
    (ph pw : (⟨2, ![100, 512]⟩ : Shape).Idx → EReal) (b : Fin 8) (s : Fin 4096) (c : Fin 1024) : EReal :=
  x (ix3 b s c) +
    (if h : c.val < 512 then ph (ix2 (row (bx (ix3 b s (1 : Fin 4))) (bx (ix3 b s (3 : Fin 4)))) (⟨c.val, h⟩ : Fin 512))
     else pw (ix2 (row (bx (ix3 b s (0 : Fin 4))) (bx (ix3 b s (2 : Fin 4)))) (⟨c.val - 512, by omega⟩ : Fin 512)))

/-- The result as an array. -/
def G (x : (⟨3, ![8, 4096, 1024]⟩ : Shape).Idx → EReal) (bx : (⟨3, ![8, 4096, 4]⟩ : Shape).Idx → EReal)
    (ph pw : (⟨2, ![100, 512]⟩ : Shape).Idx → EReal) : (⟨3, ![8, 4096, 1024]⟩ : Shape).Idx → EReal :=
  fun j => Gc x bx ph pw (j 0) (j 1) (j 2)

/-- The indicator of "the word w is the lane number k", as an extended real: the one-bit comparison widened to a
    word and converted, signed, to a float. -/
def hot (w : BitVec 32) (k : Nat) : EReal :=
  FloatOps.sitofp (F := Ideal) .f32 ((IntOp.cmpi .eq w (BitVec.ofNat 32 k)).setWidth 32)

/-- It is 1 where the word is the lane number and 0 elsewhere. -/
theorem hot_eq (w : BitVec 32) (k : Nat) (hk : k < 4294967296) : hot w k = if w.toNat = k then 1 else 0 := by
  unfold hot
  by_cases h : w = BitVec.ofNat 32 k
  · have hc : IntOp.cmpi .eq w (BitVec.ofNat 32 k) = 1#1 := IntOp.cmpi_eq.2 h
    have hn : w.toNat = k := by rw [h, BitVec.toNat_ofNat]; omega
    rw [hc, if_pos hn]
    show (((((1#1 : BitVec 1).setWidth 32).toInt : ℝ)) : EReal) = 1
    have : ((1#1 : BitVec 1).setWidth 32).toInt = 1 := by decide
    rw [this]; norm_num
  · have hc : IntOp.cmpi .eq w (BitVec.ofNat 32 k) = 0#1 := eq_zero_of_ne_one fun h1 => h (IntOp.cmpi_eq.1 h1)
    have hn : ¬ w.toNat = k := fun e => h (by rw [← e, BitVec.ofNat_toNat, BitVec.setWidth_eq])
    rw [hc, if_neg hn]
    show (((((0#1 : BitVec 1).setWidth 32).toInt : ℝ)) : EReal) = 0
    have : ((0#1 : BitVec 1).setWidth 32).toInt = 0 := by decide
    rw [this]; norm_num

/-- A sum over n lanes of indicators times entries is the entry of the lane the word names. -/
theorem hot_sum {n : Nat} (hn : n ≤ 4294967296) (w : BitVec 32) (hw : w.toNat < n) (T : Fin n → EReal) :
    ∑ k : Fin n, hot w k.val * T k = T ⟨w.toNat, hw⟩ := by
  rw [Finset.sum_eq_single (⟨w.toNat, hw⟩ : Fin n)]
  · rw [hot_eq _ _ (by omega), if_pos rfl, one_mul]
  · intro k _ hk
    rw [hot_eq _ _ (by have := k.isLt; omega), if_neg (fun h => hk (Fin.ext h.symm)), zero_mul]
  · intro h; exact absurd (Finset.mem_univ _) h

/-- A real entry plus its difference with itself is the entry. -/
theorem add_sub_self_of_real (t : EReal) (r : ℝ) (h : t = (r : EReal)) : t + (t - t) = t := by
  subst h
  rw [← EReal.coe_sub, sub_self, EReal.coe_zero, add_zero]

end Cert.Spec

end
-- ==== Proof.Finite.lean ====
/-
  What the precondition gives: every entry of the two tables is a real number.

  The precondition is a conjunction of four statements, one per argument: every entry has absolute value below
  +infinity. An extended real whose absolute value max(x, -x) is below +infinity is neither infinity, so it is a real.
-/
import proofs.«144803_j3418793967837_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

namespace Cert.Finite

open Cert.Pre_finite_inputs Idealize.ShloMosaic Idealize.ShloMosaic.ValueIdx

instance : Subsingleton S_.Idx := ⟨fun a b => funext fun d => d.elim0⟩

/-- An extended real whose absolute value is below the pattern of +infinity is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ t : ℝ, x = (t : EReal) := by
  have htop : Ideal.ofBits .f32 0x7F800000#32 = (⊤ : EReal) := by simp [Ideal.ofBits, Ideal.ieee]
  rw [htop] at h
  induction x using EReal.rec with
  | bot => exact absurd h (by simp [Ideal.cmpf_def, Ideal.absf_def, Ideal.cmp])
  | coe t => exact ⟨t, rfl⟩
  | top => exact absurd h (by simp [Ideal.cmpf_def, Ideal.absf_def, Ideal.cmp])

variable [Cert.Pre_finite_inputs.Facts]

/-- Under the precondition every entry of the third and of the fourth argument is a real. -/
theorem tables_real (a0 : FVec Ideal S8x4096x1024 .f32) (a1 : FVec Ideal S8x4096x4 .f32) (a2 a3 : FVec Ideal S100x512 .f32)
    (h : fn (F := Ideal) a0 a1 a2 a3 = fun _ => 1#1) :
    (∀ i, ∃ t : ℝ, a2 i = (t : EReal)) ∧ (∀ i, ∃ t : ℝ, a3 i = (t : EReal)) := by
  have h0 := congrFun h ix0
  dsimp only [fn, fn_part1] at h0
  simp only [andi] at h0
  obtain ⟨h012, h3⟩ := IntOp.andi_eq_one.1 h0
  obtain ⟨h01, h2⟩ := IntOp.andi_eq_one.1 h012
  refine ⟨fun i => ?_, fun i => ?_⟩
  · have e := Host.reduce_andi_all _ _ _ _ ix0 h2 i
    refine real_of_abs_lt (a2 i) ?_
    rw [← e]
    simp only [cmpf, Host.absf]
    rw [broadcastInDim_apply _ Facts.bcast_S_S100x512 _ i ix0 (fun a => a.elim0)]
    rfl
  · have e := Host.reduce_andi_all _ _ _ _ ix0 h3 i
    refine real_of_abs_lt (a3 i) ?_
    rw [← e]
    simp only [cmpf, Host.absf]
    rw [broadcastInDim_apply _ Facts.bcast_S_S100x512 _ i ix0 (fun a => a.elim0)]
    rfl

end Cert.Finite

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.KernelPay.lean ====
/-
  What one grid point leaves in the output block, entry by entry.

  A block is 2048 rows of the flattened arrays. From the four box coordinates of row r the body forms two rows of 128
  indicators (is lane k the row number the y-centre, resp. the x-centre, names?) and multiplies each into two [128, 512]
  tables; the left half of output row r is the input's left half plus the two products of the first indicator row, the
  right half the input's right half plus the two products of the second. Read at an entry, a product is a sum over the
  128 lanes of indicator times table entry.
-/
import proofs.«144803_j3418793967837_2_alg».proof.Proof.Gen.KernelIdeal.Frame
import proofs.«144803_j3418793967837_2_alg».proof.Proof.Spec
import proofs.«144803_j3418793967837_2_alg».proof.Proof.LibMatmulPlain
import proofs.«144803_j3418793967837_2_alg».proof.Proof.LibKeepdims
import Idealize.ShloMosaic.Lib.Pipeline.Value
import Idealize.ShloMosaic.Lib.ValueLayout

noncomputable section

open scoped BigOperators

namespace Cert.KernelPay

open Cert.KernelIdeal Cert.KernelIdeal.Gen Idealize.ShloMosaic Idealize.ShloMosaic.ValueIdx

variable {α : Type}

/-- A column [a, 1] cast to the vector [a] reads, at i, the column's entry of row i. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The indicator row formed from box coordinates 1 and 3 (the y-centre), at (r, k). -/
theorem pay5_apply (x0 : Vec Ideal S2048x4 .f32) (r : Fin 2048) (k : Fin 128) :
    k0_pay5 (F := Ideal) x0 (ix2 r k) = Spec.hot (Spec.cell (x0 (ix2 r (1 : Fin 4))) (x0 (ix2 r (3 : Fin 4)))) k.val := by
  unfold k0_pay5 k0_pay4
  simp only [truncf, sitofp, extui, cmpi]
  rw [LibKeepdims.broadcastTo_a1_ab_apply, LibKeepdims.shapeCast_a_a1_apply, broadcastTo_1b_ab_apply, iota_single_apply]
  simp only [minsi, maxsi, fptosi, mulf, addf, broadcast]
  rw [shapeCast_a1_a_apply, shapeCast_a1_a_apply,
    slice2_axis1_apply 1 _ _ r (0 : Fin 1) (1 : Fin 4) rfl, slice2_axis1_apply 3 _ _ r (0 : Fin 1) (3 : Fin 4) rfl,
    shapeCast_self]
  rfl

/-- The indicator row formed from box coordinates 0 and 2 (the x-centre), at (r, k). -/
theorem pay6_apply (x0 : Vec Ideal S2048x4 .f32) (r : Fin 2048) (k : Fin 128) :
    k0_pay6 (F := Ideal) x0 (ix2 r k) = Spec.hot (Spec.cell (x0 (ix2 r (0 : Fin 4))) (x0 (ix2 r (2 : Fin 4)))) k.val := by
  unfold k0_pay6 k0_pay4
  simp only [truncf, sitofp, extui, cmpi]
  rw [LibKeepdims.broadcastTo_a1_ab_apply, LibKeepdims.shapeCast_a_a1_apply, broadcastTo_1b_ab_apply, iota_single_apply]
  simp only [minsi, maxsi, fptosi, mulf, addf, broadcast]
  rw [shapeCast_a1_a_apply, shapeCast_a1_a_apply,
    slice2_axis1_apply 0 _ _ r (0 : Fin 1) (0 : Fin 4) rfl, slice2_axis1_apply 2 _ _ r (0 : Fin 1) (2 : Fin 4) rfl,
    shapeCast_self]
  rfl

/-- The two products of one indicator row, at (r, q): the sums over the lanes. -/
def rowTerm (x0 : (⟨2, ![2048, 4]⟩ : Shape).Idx → EReal) (T1 T2 : (⟨2, ![128, 512]⟩ : Shape).Idx → EReal) (lo hi : Fin 4)
    (r : Fin 2048) (q : Fin 512) : EReal :=
  (∑ k : Fin 128, Spec.hot (Spec.cell (x0 (ix2 r lo)) (x0 (ix2 r hi))) k.val * T1 (ix2 k q))
    + ∑ k : Fin 128, Spec.hot (Spec.cell (x0 (ix2 r lo)) (x0 (ix2 r hi))) k.val * T2 (ix2 k q)

/-- The left half's payload at (r, q). -/
theorem pay2_apply (x0 : Vec Ideal S2048x4 .f32) (x2 x3 : Vec Ideal S128x512 .bf16) (x1 : Vec Ideal S2048x1024 .f32)
    (r : Fin 2048) (q : Fin 512) :
    k0_pay2 (F := Ideal) (k0_pay5 x0) (k0_pay7 x2) x3 x1 (ix2 r q)
      = x1 (ix2 r (⟨q.val, by omega⟩ : Fin 1024)) + rowTerm x0 x2 x3 1 3 r q := by
  unfold k0_pay2 k0_pay1 k0_pay7
  simp only [addf, matmul]
  rw [slice2_axis1_apply 0 _ _ r q (⟨q.val, by omega⟩ : Fin 1024) (by simp), shapeCast_self, shapeCast_self, shapeCast_self,
    LibMatmulPlain.matmul_zero_apply _ rfl rfl rfl rfl rfl rfl, LibMatmulPlain.matmul_zero_apply _ rfl rfl rfl rfl rfl rfl]
  unfold rowTerm
  simp only [pay5_apply]
  rfl

/-- The right half's payload at (r, q). -/
theorem pay3_apply (x0 : Vec Ideal S2048x4 .f32) (x4 x5 : Vec Ideal S128x512 .bf16) (x1 : Vec Ideal S2048x1024 .f32)
    (r : Fin 2048) (q : Fin 512) :
    k0_pay3 (F := Ideal) (k0_pay6 x0) x4 x5 x1 (ix2 r q)
      = x1 (ix2 r (⟨512 + q.val, by omega⟩ : Fin 1024)) + rowTerm x0 x4 x5 0 2 r q := by
  unfold k0_pay3 k0_pay1
  simp only [addf, matmul]
  rw [slice2_axis1_apply 512 _ _ r q (⟨512 + q.val, by omega⟩ : Fin 1024) rfl, shapeCast_self, shapeCast_self, shapeCast_self,
    LibMatmulPlain.matmul_zero_apply _ rfl rfl rfl rfl rfl rfl, LibMatmulPlain.matmul_zero_apply _ rfl rfl rfl rfl rfl rfl]
  unfold rowTerm
  simp only [pay6_apply]
  rfl

/-- What the block holds at (r, c): the input entry plus the two products of the indicator row that belongs to the
    half the column lies in. -/
def blockOut (x0 : (⟨2, ![2048, 4]⟩ : Shape).Idx → EReal) (x1 : (⟨2, ![2048, 1024]⟩ : Shape).Idx → EReal)
    (x2 x3 x4 x5 : (⟨2, ![128, 512]⟩ : Shape).Idx → EReal) (r : Fin 2048) (c : Fin 1024) : EReal :=
  x1 (ix2 r c) + (if h : c.val < 512 then rowTerm x0 x2 x3 1 3 r (⟨c.val, h⟩ : Fin 512)
    else rowTerm x0 x4 x5 0 2 r (⟨c.val - 512, by omega⟩ : Fin 512))

theorem hz : (![0, 0] : Fin 2 → Nat) = fun _ => 0 := funext fun a => by fin_cases a <;> rfl

/-- The two stores of the body are the two halves of that function. -/
theorem out0_6_apply (x0 : Vec Ideal S2048x4 .f32) (x1 : Vec Ideal S2048x1024 .f32) (x2 x3 x4 x5 : Vec Ideal S128x512 .bf16)
    (y : S2048x1024.Idx) :
    out0_6 (F := Ideal) x0 x1 x2 x3 x4 x5 y = blockOut x0 x1 x2 x3 x4 x5 (y 0) (y 1) := by
  unfold out0_6
  simp only [View.ld_unit_zero (S := S2048x4) hz, View.ld_unit_zero (S := S128x512) hz, View.ld_unit_zero (S := S2048x1024) hz]
  refine View.canon_apply_of_pieces (Val := Elt Ideal) (fun y => blockOut x0 x1 x2 x3 x4 x5 (y 0) (y 1)) _ ?_ y (cover0_6 _ _ y)
  intro p hp x
  simp only [List.mem_cons, List.not_mem_nil, or_false] at hp
  rcases hp with rfl | rfl
  · obtain ⟨r, q, rfl⟩ : ∃ (r : Fin 2048) (q : Fin 512), x = ix2 r q := ⟨x 0, x 1, eq_ix2 x⟩
    have e0 : (r0_4.emb (ix2 r q) 0 : Fin 2048) = r := Fin.ext (by show 0 + 1 * r.val = r.val; omega)
    have e1 : (r0_4.emb (ix2 r q) 1 : Fin 1024) = (⟨512 + q.val, by omega⟩ : Fin 1024) :=
      Fin.ext (by show 512 + 1 * q.val = 512 + q.val; omega)
    show k0_pay3 (F := Ideal) (k0_pay6 x0) x4 x5 x1 (ix2 r q)
      = blockOut x0 x1 x2 x3 x4 x5 (r0_4.emb (ix2 r q) 0) (r0_4.emb (ix2 r q) 1)
    rw [e0, e1, pay3_apply]
    unfold blockOut
    rw [dif_neg (by show ¬ 512 + q.val < 512; omega)]
    congr 2
    exact Fin.ext (by show q.val = 512 + q.val - 512; omega)
  · obtain ⟨r, q, rfl⟩ : ∃ (r : Fin 2048) (q : Fin 512), x = ix2 r q := ⟨x 0, x 1, eq_ix2 x⟩
    have e0 : (r0_3.emb (ix2 r q) 0 : Fin 2048) = r := Fin.ext (by show 0 + 1 * r.val = r.val; omega)
    have e1 : (r0_3.emb (ix2 r q) 1 : Fin 1024) = (⟨q.val, by omega⟩ : Fin 1024) :=
      Fin.ext (by show 0 + 1 * q.val = q.val; omega)
    show k0_pay2 (F := Ideal) (k0_pay5 x0) (k0_pay7 x2) x3 x1 (ix2 r q)
      = blockOut x0 x1 x2 x3 x4 x5 (r0_3.emb (ix2 r q) 0) (r0_3.emb (ix2 r q) 1)
    rw [e0, e1, pay2_apply]
    unfold blockOut
    rw [dif_pos (by show q.val < 512; exact q.isLt)]

/-! ## The products select a table row

With the first table a zero-padded copy of a 100-row table and the second the copy's difference with itself, the two
sums over the lanes are the table's entry in the named row plus that entry's difference with itself: the entry, when
it is real. -/

/-- A table with 100 rows, padded with zero rows to 128. -/
def padded (P : (⟨2, ![100, 512]⟩ : Shape).Idx → EReal) : (⟨2, ![128, 512]⟩ : Shape).Idx → EReal :=
  fun j => if h : (j 0).val < 100 then P (ix2 (⟨(j 0).val, h⟩ : Fin 100) (j 1)) else 0

theorem padded_apply_of_lt (P : (⟨2, ![100, 512]⟩ : Shape).Idx → EReal) (k : Fin 128) (q : Fin 512) (h : k.val < 100) :
    padded P (ix2 k q) = P (ix2 (⟨k.val, h⟩ : Fin 100) q) := dif_pos h

/-- The two products of an indicator row into the padded table and into its difference with itself are the table's
    entry in the row the box coordinates name. -/
theorem rowTerm_eq (x0 : (⟨2, ![2048, 4]⟩ : Shape).Idx → EReal) (T1 T2 : (⟨2, ![128, 512]⟩ : Shape).Idx → EReal)
    (P : (⟨2, ![100, 512]⟩ : Shape).Idx → EReal) (hP : ∀ i, ∃ t : ℝ, P i = (t : EReal))
    (h1 : ∀ k q, T1 (ix2 k q) = padded P (ix2 k q)) (h2 : ∀ k q, T2 (ix2 k q) = padded P (ix2 k q) - padded P (ix2 k q))
    (lo hi : Fin 4) (r : Fin 2048) (q : Fin 512) :
    rowTerm x0 T1 T2 lo hi r q = P (ix2 (Spec.row (x0 (ix2 r lo)) (x0 (ix2 r hi))) q) := by
  unfold rowTerm
  have hw : (Spec.cell (x0 (ix2 r lo)) (x0 (ix2 r hi))).toNat < 128 := by
    have := Spec.cell_lt (x0 (ix2 r lo)) (x0 (ix2 r hi)); omega
  rw [Spec.hot_sum (by norm_num) _ hw (fun k => T1 (ix2 k q)), Spec.hot_sum (by norm_num) _ hw (fun k => T2 (ix2 k q)), h1, h2,
    padded_apply_of_lt P _ q (Spec.cell_lt _ _)]
  obtain ⟨t, ht⟩ := hP (ix2 (Spec.row (x0 (ix2 r lo)) (x0 (ix2 r hi))) q)
  exact Spec.add_sub_self_of_real _ t ht

/-- So the block is, entry by entry, the input entry plus the entry of the height table (left half) or of the width
    table (right half) in the row the box of the block's row names. -/
theorem blockOut_eq (x0 : (⟨2, ![2048, 4]⟩ : Shape).Idx → EReal) (x1 : (⟨2, ![2048, 1024]⟩ : Shape).Idx → EReal)
    (x2 x3 x4 x5 : (⟨2, ![128, 512]⟩ : Shape).Idx → EReal) (ph pw : (⟨2, ![100, 512]⟩ : Shape).Idx → EReal)
    (hph : ∀ i, ∃ t : ℝ, ph i = (t : EReal)) (hpw : ∀ i, ∃ t : ℝ, pw i = (t : EReal))
    (h2 : ∀ k q, x2 (ix2 k q) = padded ph (ix2 k q)) (h3 : ∀ k q, x3 (ix2 k q) = padded ph (ix2 k q) - padded ph (ix2 k q))
    (h4 : ∀ k q, x4 (ix2 k q) = padded pw (ix2 k q)) (h5 : ∀ k q, x5 (ix2 k q) = padded pw (ix2 k q) - padded pw (ix2 k q))
    (r : Fin 2048) (c : Fin 1024) :
    blockOut x0 x1 x2 x3 x4 x5 r c = x1 (ix2 r c) +
      (if h : c.val < 512 then ph (ix2 (Spec.row (x0 (ix2 r (1 : Fin 4))) (x0 (ix2 r (3 : Fin 4)))) (⟨c.val, h⟩ : Fin 512))
       else pw (ix2 (Spec.row (x0 (ix2 r (0 : Fin 4))) (x0 (ix2 r (2 : Fin 4)))) (⟨c.val - 512, by omega⟩ : Fin 512))) := by
  unfold blockOut
  split
  · rw [rowTerm_eq x0 x2 x3 ph hph h2 h3]
  · rw [rowTerm_eq x0 x4 x5 pw hpw h4 h5]

end Cert.KernelPay

end
-- ==== Proof.LibScatterRows.lean ====
/-
  A BLOCK OF ROWS WRITTEN INTO A LARGER ARRAY BY ONE SCATTER WINDOW, read at an entry.

  `stablehlo.scatter` of an `[N, C]` array of updates into an `[M, C]` operand, with both axes of the updates
  window axes, no inserted axis, the one component of the single scatter index naming the operand's axis 0, and
  that index equal to 0: the whole of the updates is ONE window whose corner is the operand's corner (what writing
  an array into the first `N` rows of a larger one lowers to). Entry `(k, c)` of the result is the body applied to
  the operand's entry and the update's entry `(k, c)` when `k < N`, and the operand's entry when `N ≤ k`
  (`scatter_rows_apply`).

  The scatter is a left fold of point updates over the update indices in row-major order. Three layers:
  * a fold of point updates over any list, read at one point: a point no element of the list is sent to keeps its
    value (`foldl_point_of_not_hit`); a point exactly one element of a list without repeats is sent to is
    updated once, by that element (`foldl_point_of_hit_once`);
  * the same two statements for `Host.scatter` with any dimension numbers, in terms of the result index of each
    update index (`scatter_apply_of_not_hit`, `scatter_apply_of_hit_once`): the update indices in row-major order
    are the list of all of them, without repeats, because row-major order is a bijection;
  * for the dimension numbers above the window starts at 0 on both axes and the window coordinate on each axis is
    the update index's own coordinate, so update index `(r, c)` lands at operand index `(r, c)`
    (`rows_resultIdx`): an injective map whose image is the rows below `N`.
-/
import Idealize.ShloMosaic.Lib.ValueIdx
import Idealize.ShloMosaic.PureOps.ShapeOps

noncomputable section

namespace Cert.LibScatterRows

open Idealize.ShloMosaic Idealize.ShloMosaic.ValueIdx

/-! ## A left fold of point updates, read at one point

`g n` is the point element `n` updates (`none`: it updates nothing), `u n` the value it brings, `f` combines the old
value with the brought one. The step is given by its two defining equations rather than as a `match`, so that the
lemmas apply to any function that satisfies them. -/

section Fold
variable {ι κ α : Type} [DecidableEq ι]

/-- A point that no element of the list updates keeps its value through the fold. By induction on the list: the
    head's step changes only the point the head is sent to, which is another one. -/
theorem foldl_point_of_not_hit (g : κ → Option ι) (f : α → α → α) (u : κ → α)
    (step : (ι → α) → κ → ι → α)
    (hs : ∀ r n i, g n = some i → step r n = fun j => if j = i then f (r i) (u n) else r j)
    (hn : ∀ r n, g n = none → step r n = r)
    (L : List κ) (x : ι → α) (i' : ι) (h : ∀ n ∈ L, g n ≠ some i') :
    L.foldl step x i' = x i' := by
  induction L generalizing x with
  | nil => rfl
  | cons n L ih =>
    rw [List.foldl_cons, ih _ (fun m hm => h m (List.mem_cons_of_mem _ hm))]
    cases hg : g n with
    | none => rw [hn x n hg]
    | some i =>
      rw [hs x n i hg]
      have hne : i' ≠ i := fun e => h n (List.mem_cons_self ..) (by rw [hg, e])
      exact if_neg hne

/-- A point that exactly one element `n0` of a list without repeats updates is, after the fold, `f` of its first value
    and the value `n0` brings. By induction on the list: if `n0` is the head, the head's step makes the update and
    the tail (which does not contain `n0` again, so updates the point no more) keeps it; if `n0` is in the tail, the
    head is another element, so leaves the point alone, and the induction hypothesis applies to the tail. -/
theorem foldl_point_of_hit_once (g : κ → Option ι) (f : α → α → α) (u : κ → α)
    (step : (ι → α) → κ → ι → α)
    (hs : ∀ r n i, g n = some i → step r n = fun j => if j = i then f (r i) (u n) else r j)
    (hn : ∀ r n, g n = none → step r n = r)
    (L : List κ) (hnd : L.Nodup) (x : ι → α) (i' : ι) (n0 : κ) (hn0 : n0 ∈ L) (hg0 : g n0 = some i')
    (huniq : ∀ n ∈ L, g n = some i' → n = n0) :
    L.foldl step x i' = f (x i') (u n0) := by
  induction L generalizing x with
  | nil => cases hn0
  | cons n L ih =>
    rw [List.foldl_cons]
    have hnd' := List.nodup_cons.1 hnd
    rcases List.mem_cons.1 hn0 with heq | hmem
    · subst heq
      rw [foldl_point_of_not_hit g f u step hs hn L _ i' (fun m hm hgm => by
        have := huniq m (List.mem_cons_of_mem _ hm) hgm
        subst this; exact hnd'.1 hm)]
      rw [hs x n0 i' hg0]; exact if_pos rfl
    · have hne : n ≠ n0 := fun e => hnd'.1 (e ▸ hmem)
      have hgn : g n ≠ some i' := fun e => hne (huniq n (List.mem_cons_self ..) e)
      rw [ih hnd'.2 _ hmem (fun m hm => huniq m (List.mem_cons_of_mem _ hm))]
      congr 1
      cases hg : g n with
      | none => rw [hn x n hg]
      | some i => rw [hs x n i hg]; exact if_neg (fun e => hgn (by rw [hg, e]))

end Fold

/-! ## `Host.scatter` read at an operand index, for any dimension numbers -/

section Scatter
variable {α : Type} {s si u : Shape} {w : Nat}

/-- An operand index that is the result index of no update index keeps the operand's element. -/
theorem scatter_apply_of_not_hit (d : ScatterDims s si u) (f : α → α → α) (x : s.Idx → α) (idx : IVec si w)
    (upd : u.Idx → α) (i' : s.Idx) (h : ∀ j, d.resultIdx? j idx ≠ some i') :
    Host.scatter d f x idx upd i' = x i' := by
  unfold Host.scatter
  exact foldl_point_of_not_hit (fun n => d.resultIdx? (u.rowMajor.symm n) idx) f (fun n => upd (u.rowMajor.symm n)) _
    (fun r n i hg => by
      have hg' : d.resultIdx? (u.rowMajor.symm n) idx = some i := hg
      simp only [hg'])
    (fun r n hg => by
      have hg' : d.resultIdx? (u.rowMajor.symm n) idx = none := hg
      simp only [hg'])
    (List.finRange u.numel) x i' (fun n _ => h (u.rowMajor.symm n))

/-- An operand index that is the result index of exactly one update index `j0` holds the body applied to the
    operand's element and the update's element at `j0`. The fold runs over the positions `0 … numel − 1`, a list
    without repeats, each standing for the update index at that row-major position; that correspondence is a
    bijection, so the one position sent to the operand index is `j0`'s. -/
theorem scatter_apply_of_hit_once (d : ScatterDims s si u) (f : α → α → α) (x : s.Idx → α) (idx : IVec si w)
    (upd : u.Idx → α) (i' : s.Idx) (j0 : u.Idx) (h0 : d.resultIdx? j0 idx = some i')
    (huniq : ∀ j, d.resultIdx? j idx = some i' → j = j0) :
    Host.scatter d f x idx upd i' = f (x i') (upd j0) := by
  unfold Host.scatter
  refine (foldl_point_of_hit_once (fun n => d.resultIdx? (u.rowMajor.symm n) idx) f
    (fun n => upd (u.rowMajor.symm n)) _
    (fun r n i hg => by
      have hg' : d.resultIdx? (u.rowMajor.symm n) idx = some i := hg
      simp only [hg'])
    (fun r n hg => by
      have hg' : d.resultIdx? (u.rowMajor.symm n) idx = none := hg
      simp only [hg'])
    (List.finRange u.numel) (List.nodup_finRange _) x i' (u.rowMajor j0) (List.mem_finRange _)
    (by simp only [Equiv.symm_apply_apply]; exact h0)
    (fun n _ hg => by
      have := huniq (u.rowMajor.symm n) hg
      rw [← this, Equiv.apply_symm_apply])).trans ?_
  simp only [Equiv.symm_apply_apply]

end Scatter

/-! ## One window of `N` rows at the corner of an `[M, C]` operand -/

section Rows
variable {M N C w : Nat}

/-- The dimension numbers: operand `[M, C]`, scatter indices `[1]` (one index vector of one component, along axis
    0), updates `[N, C]`; both update axes are window axes, no operand axis is inserted, the index's component
    is the start on operand axis 0. Their conditions `wf` are decided on a program's literal shapes. -/
abbrev rowsDims (M N C : Nat) (wf : ScatterDims.WF ⟨2, ![M, C]⟩ ⟨1, ![1]⟩ ⟨2, ![N, C]⟩ [0, 1] [] [0] 0) :
    ScatterDims ⟨2, ![M, C]⟩ ⟨1, ![1]⟩ ⟨2, ![N, C]⟩ where
  updateWindowDims := [0, 1]
  insertedWindowDims := []
  scatterDimsToOperandDims := [0]
  indexVectorDim := 0
  wf := wf

/-- With no inserted axis the operand's kept axes are both of its axes. -/
theorem rows_sKept (wf : ScatterDims.WF ⟨2, ![M, C]⟩ ⟨1, ![1]⟩ ⟨2, ![N, C]⟩ [0, 1] [] [0] 0) :
    (rowsDims M N C wf).sKept = [0, 1] := rfl

/-- The conditions contain `N ≤ M`: window axis 0 of the updates is at most the operand axis it goes to. -/
theorem rows_le (wf : ScatterDims.WF ⟨2, ![M, C]⟩ ⟨1, ![1]⟩ ⟨2, ![N, C]⟩ [0, 1] [] [0] 0) : N ≤ M :=
  (rowsDims M N C wf).window_size ⟨0, Nat.zero_lt_two⟩

/-- The window starts at 0 on operand axis 0: that start is the scatter index's one component, read at the
    scatter-indices index whose only coordinate is 0, and it is 0 by hypothesis. -/
theorem rows_start0 (wf : ScatterDims.WF ⟨2, ![M, C]⟩ ⟨1, ![1]⟩ ⟨2, ![N, C]⟩ [0, 1] [] [0] 0)
    (idx : IVec ⟨1, ![1]⟩ w) (hidx : (idx (ix1 0)).toInt = 0) (j : (⟨2, ![N, C]⟩ : Shape).Idx) :
    (rowsDims M N C wf).start j idx 0 = 0 := by
  unfold ScatterDims.start
  rw [dif_pos (show (0 : Fin 2) ∈ (rowsDims M N C wf).scatterDimsToOperandDims from List.mem_singleton.mpr rfl)]
  have hsi : (rowsDims M N C wf).siIdx j ⟨List.idxOf (0 : Fin 2) (rowsDims M N C wf).scatterDimsToOperandDims,
      List.idxOf_lt_length_iff.2 (List.mem_singleton.mpr rfl)⟩ = ix1 0 := by
    funext b; refine Fin.ext ?_
    match b with
    | ⟨0, _⟩ => rfl
  rw [hsi]; exact hidx

/-- The window starts at 0 on operand axis 1: the scatter index has no component for it. -/
theorem rows_start1 (wf : ScatterDims.WF ⟨2, ![M, C]⟩ ⟨1, ![1]⟩ ⟨2, ![N, C]⟩ [0, 1] [] [0] 0)
    (idx : IVec ⟨1, ![1]⟩ w) (j : (⟨2, ![N, C]⟩ : Shape).Idx) :
    (rowsDims M N C wf).start j idx 1 = 0 := by
  unfold ScatterDims.start
  rw [dif_neg (show (1 : Fin 2) ∉ (rowsDims M N C wf).scatterDimsToOperandDims from
    fun h => Nat.one_ne_zero (congrArg Fin.val (List.mem_singleton.mp h)))]

/-- The window coordinate on operand axis 0 is the update index's coordinate 0. -/
theorem rows_window0 (wf : ScatterDims.WF ⟨2, ![M, C]⟩ ⟨1, ![1]⟩ ⟨2, ![N, C]⟩ [0, 1] [] [0] 0)
    (j : (⟨2, ![N, C]⟩ : Shape).Idx) : (rowsDims M N C wf).window j 0 = (j 0).val := by
  unfold ScatterDims.window
  rw [dif_pos (show (0 : Fin 2) ∈ (rowsDims M N C wf).sKept by rw [rows_sKept]; exact List.mem_cons_self ..)]
  rfl

/-- The window coordinate on operand axis 1 is the update index's coordinate 1. -/
theorem rows_window1 (wf : ScatterDims.WF ⟨2, ![M, C]⟩ ⟨1, ![1]⟩ ⟨2, ![N, C]⟩ [0, 1] [] [0] 0)
    (j : (⟨2, ![N, C]⟩ : Shape).Idx) : (rowsDims M N C wf).window j 1 = (j 1).val := by
  unfold ScatterDims.window
  rw [dif_pos (show (1 : Fin 2) ∈ (rowsDims M N C wf).sKept by rw [rows_sKept]; exact List.mem_cons_of_mem _ (List.mem_cons_self ..))]
  rfl

end Rows

section RowsMain
variable {α : Type} {M N C w : Nat}

/-- Update index `(r, c)` lands at operand index `(r, c)`: start plus window coordinate is `0 + r` on axis 0 and
    `0 + c` on axis 1, inside the operand because `r < N ≤ M` and `c < C`; no update is dropped. -/
theorem rows_resultIdx (wf : ScatterDims.WF ⟨2, ![M, C]⟩ ⟨1, ![1]⟩ ⟨2, ![N, C]⟩ [0, 1] [] [0] 0)
    (idx : IVec ⟨1, ![1]⟩ w) (hidx : (idx (ix1 0)).toInt = 0) (j : (⟨2, ![N, C]⟩ : Shape).Idx) :
    (rowsDims M N C wf).resultIdx? j idx
      = some (ix2 ⟨(j 0).val, Nat.lt_of_lt_of_le (idx2_lt0 j) (rows_le wf)⟩ (j 1)) := by
  have hNM := rows_le wf
  have hj0 := idx2_lt0 j
  have hj1 := idx2_lt1 j
  have h0 : (rowsDims M N C wf).start j idx 0 + ((rowsDims M N C wf).window j 0 : Int) = ((j 0).val : Int) := by
    rw [rows_start0 wf idx hidx j, rows_window0 wf j, Int.zero_add]
  have h1 : (rowsDims M N C wf).start j idx 1 + ((rowsDims M N C wf).window j 1 : Int) = ((j 1).val : Int) := by
    rw [rows_start1 wf idx j, rows_window1 wf j, Int.zero_add]
  unfold ScatterDims.resultIdx?
  have hall : ∀ a : Fin 2, 0 ≤ (rowsDims M N C wf).start j idx a + ((rowsDims M N C wf).window j a : Int) ∧
      (rowsDims M N C wf).start j idx a + ((rowsDims M N C wf).window j a : Int)
        < (((⟨2, ![M, C]⟩ : Shape).size a : Nat) : Int) := by
    intro a
    match a with
    | ⟨0, _⟩ =>
      show 0 ≤ (rowsDims M N C wf).start j idx 0 + ((rowsDims M N C wf).window j 0 : Int) ∧
        (rowsDims M N C wf).start j idx 0 + ((rowsDims M N C wf).window j 0 : Int) < ((M : Nat) : Int)
      rw [h0]; exact ⟨by omega, by omega⟩
    | ⟨1, _⟩ =>
      show 0 ≤ (rowsDims M N C wf).start j idx 1 + ((rowsDims M N C wf).window j 1 : Int) ∧
        (rowsDims M N C wf).start j idx 1 + ((rowsDims M N C wf).window j 1 : Int) < ((C : Nat) : Int)
      rw [h1]; exact ⟨by omega, by omega⟩
  rw [dif_pos hall]
  congr 1
  funext a
  refine Fin.ext ?_
  match a with
  | ⟨0, _⟩ =>
    show ((rowsDims M N C wf).start j idx 0 + ((rowsDims M N C wf).window j 0 : Int)).toNat = (j 0).val
    rw [h0]; exact Int.toNat_natCast _
  | ⟨1, _⟩ =>
    show ((rowsDims M N C wf).start j idx 1 + ((rowsDims M N C wf).window j 1 : Int)).toNat = (j 1).val
    rw [h1]; exact Int.toNat_natCast _

/-- THE SCATTER READ AT `(k, c)`: in the first `N` rows the body applied to the operand's entry and the update's
    entry at the same place, below them the operand's entry. The map from update indices to operand indices is
    `(r, c) ↦ (r, c)`: for `k < N` its only preimage of `(k, c)` is `(k, c)` itself, and for `N ≤ k` there is none
    because an update index's row is below `N`. -/
theorem scatter_rows_apply (wf : ScatterDims.WF ⟨2, ![M, C]⟩ ⟨1, ![1]⟩ ⟨2, ![N, C]⟩ [0, 1] [] [0] 0)
    (f : α → α → α) (x : (⟨2, ![M, C]⟩ : Shape).Idx → α) (idx : IVec ⟨1, ![1]⟩ w)
    (hidx : (idx (ix1 0)).toInt = 0) (upd : (⟨2, ![N, C]⟩ : Shape).Idx → α) (k : Fin M) (c : Fin C) :
    Host.scatter (rowsDims M N C wf) f x idx upd (ix2 k c)
      = if h : k.val < N then f (x (ix2 k c)) (upd (ix2 ⟨k.val, h⟩ c)) else x (ix2 k c) := by
  by_cases h : k.val < N
  · rw [dif_pos h]
    refine scatter_apply_of_hit_once (rowsDims M N C wf) f x idx upd (ix2 k c) (ix2 ⟨k.val, h⟩ c) ?_ ?_
    · rw [rows_resultIdx wf idx hidx]; rfl
    · intro j hj
      rw [rows_resultIdx wf idx hidx j] at hj
      have e := Option.some.inj hj
      have e0 : (j 0).val = k.val := congrArg Fin.val (congrFun e 0)
      have e1 : j 1 = c := congrFun e 1
      rw [eq_ix2 j]
      congr 1
      · exact Fin.ext e0
  · rw [dif_neg h]
    refine scatter_apply_of_not_hit (rowsDims M N C wf) f x idx upd (ix2 k c) ?_
    intro j hj
    rw [rows_resultIdx wf idx hidx j] at hj
    have e := Option.some.inj hj
    have e0 : (j 0).val = k.val := congrArg Fin.val (congrFun e 0)
    have := idx2_lt0 j
    omega

end RowsMain

end Cert.LibScatterRows

end
-- ==== Proof.KernelArr.lean ====
/-
  The kernel's result array.

  Before the region the host flattens the input and the boxes to 32768 rows, pads each table with zero rows to 128
  rows, and splits each padded table into itself (a change of format is the identity on extended reals) and its
  difference with itself. Grid point t works on rows 2048 t .. 2048 t + 2047; the tables are fetched whole. After the
  region the flat result is given back its leading axes.
-/
import proofs.«144803_j3418793967837_2_alg».proof.Proof.Gen.KernelIdeal.Frame
import proofs.«144803_j3418793967837_2_alg».proof.Proof.Spec
import proofs.«144803_j3418793967837_2_alg».proof.Proof.KernelPay
import proofs.«144803_j3418793967837_2_alg».proof.Proof.LibScatterRows
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelArr

open Cert.KernelIdeal Cert.KernelIdeal.Gen Idealize.ShloMosaic.ValueIdx

variable (m : (ℓ : Loc nD τ sig) → Buf (Elt Ideal) ℓ) (ρ : Dev nD → PrngReg)

/-- A table written over the first rows of a zero [128, 512] array, as the host does it. -/
def hostPad (P : FVec Ideal S100x512 .f32) : FVec Ideal S128x512 .f32 :=
  Host.scatter scatter_S128x512_S1_S100x512_01_n_0_0 (fun _ b => b)
    (broadcastInDim S128x512 ![] bcast_S_S128x512 (constant S_ .f32 0x00000000#32))
    (broadcastInDim S1 ![] bcast_S_S1 (constantI S_ 32 0#32)) P

/-- It is the table in rows below 100 and zero in the others. -/
theorem hostPad_apply (P : FVec Ideal S100x512 .f32) (k : Fin 128) (q : Fin 512) :
    hostPad P (ix2 k q) = KernelPay.padded P (ix2 k q) := by
  unfold hostPad
  refine (LibScatterRows.scatter_rows_apply _ _ _ _ ?_ _ k q).trans ?_
  · rw [broadcastInDim_apply _ bcast_S_S1 _ _ ix0 (fun a => a.elim0)]
    decide
  · unfold KernelPay.padded
    split
    · rfl
    · rw [broadcastInDim_apply _ bcast_S_S128x512 _ _ ix0 (fun a => a.elim0)]
      exact Ideal.ofBits_zero_f32

/-- The arrays the region finds. -/
theorem V_boxes (c : Dev nD) :
    (V m c main_v1 : S32768x4.Idx → EReal) = shapeCast S32768x4 (m ((c : Thread nD τ).loc main_arg1)) shapeCasts_S8x4096x4_S32768x4 := by
  show StableHlo.after hostOps0 (fun b => m (c, b)) (Proc.devRef .tc main_v1) = _
  after_results; funext i; rfl

theorem V_x (c : Dev nD) :
    (V m c main_v0 : S32768x1024.Idx → EReal) = shapeCast S32768x1024 (m ((c : Thread nD τ).loc main_arg0)) shapeCasts_S8x4096x1024_S32768x1024 := by
  show StableHlo.after hostOps0 (fun b => m (c, b)) (Proc.devRef .tc main_v0) = _
  after_results; funext i; rfl

/-- A change of format is the identity on extended reals. -/
theorem hi_apply (H : FVec Ideal S128x512 .f32) (i : S128x512.Idx) :
    (truncf .bf16 H bitsLt_bf16_f32 : FVec Ideal S128x512 .bf16) i = H i := rfl

/-- So the low part of the split is the table's difference with itself. -/
theorem lo_apply (H : FVec Ideal S128x512 .f32) (i : S128x512.Idx) :
    (truncf .bf16 (subf H (extf .f32 (truncf .bf16 H bitsLt_bf16_f32) bitsLt_bf16_f32)) bitsLt_bf16_f32 : FVec Ideal S128x512 .bf16) i
      = H i - H i := rfl

theorem V_hh (c : Dev nD) :
    (V m c main_v8 : S128x512.Idx → EReal) = truncf .bf16 (hostPad (m ((c : Thread nD τ).loc main_arg2))) bitsLt_bf16_f32 := by
  show StableHlo.after hostOps0 (fun b => m (c, b)) (Proc.devRef .tc main_v8) = _
  unfold hostPad
  after_results

theorem V_hl (c : Dev nD) :
    (V m c main_v11 : S128x512.Idx → EReal)
      = truncf .bf16 (subf (hostPad (m ((c : Thread nD τ).loc main_arg2)))
          (extf .f32 (truncf .bf16 (hostPad (m ((c : Thread nD τ).loc main_arg2))) bitsLt_bf16_f32) bitsLt_bf16_f32)) bitsLt_bf16_f32 := by
  show StableHlo.after hostOps0 (fun b => m (c, b)) (Proc.devRef .tc main_v11) = _
  unfold hostPad
  after_results

theorem V_wh (c : Dev nD) :
    (V m c main_v12 : S128x512.Idx → EReal) = truncf .bf16 (hostPad (m ((c : Thread nD τ).loc main_arg3))) bitsLt_bf16_f32 := by
  show StableHlo.after hostOps0 (fun b => m (c, b)) (Proc.devRef .tc main_v12) = _
  unfold hostPad
  after_results

theorem V_wl (c : Dev nD) :
    (V m c main_v15 : S128x512.Idx → EReal)
      = truncf .bf16 (subf (hostPad (m ((c : Thread nD τ).loc main_arg3)))
          (extf .f32 (truncf .bf16 (hostPad (m ((c : Thread nD τ).loc main_arg3))) bitsLt_bf16_f32) bitsLt_bf16_f32)) bitsLt_bf16_f32 := by
  show StableHlo.after hostOps0 (fun b => m (c, b)) (Proc.devRef .tc main_v15) = _
  unfold hostPad
  after_results

/-- The grid is sixteen points. -/
theorem N16 : cfg0.N = 16 := N_0

/-- The printed index maps, decided over the grid: the boxes', the input's and the output's blocks move down the rows
    with the point; the four tables' stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The boxes' block at point t is rows 2048 t .. of the flattened boxes. -/
theorem iblk0_apply (c : Dev nD) (t : Fin cfg0.N) (r : Fin 2048) (j : Fin 4) (n : Fin 32768) (hn : n.val = 2048 * t.val + r.val) :
    (iblk m c 0 t : Vec Ideal S2048x4 .f32) (ix2 r j) = (V m c main_v1 : S32768x4.Idx → EReal) (ix2 n j) := by
  obtain ⟨e0, e1, -⟩ := idx_facts t
  unfold iblk
  rw [View.read_apply]
  show V m c main_v1 _ = V m c main_v1 _
  congr 1
  funext a
  apply Fin.ext
  match a with
  | ⟨0, _⟩ => show win0_0.index t 0 * 2048 + 1 * r.val = n.val; rw [e0, hn]; omega
  | ⟨1, _⟩ => show win0_0.index t 1 * 4 + 1 * j.val = j.val; rw [e1]; omega

/-- The input's block at point t is rows 2048 t .. of the flattened input. -/
theorem iblk1_apply (c : Dev nD) (t : Fin cfg0.N) (r : Fin 2048) (q : Fin 1024) (n : Fin 32768) (hn : n.val = 2048 * t.val + r.val) :
    (iblk m c 1 t : Vec Ideal S2048x1024 .f32) (ix2 r q) = (V m c main_v0 : S32768x1024.Idx → EReal) (ix2 n q) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t 0 * 2048 + 1 * r.val = n.val; rw [e0, hn]; omega
  | ⟨1, _⟩ => show win0_1.index t 1 * 1024 + 1 * q.val = q.val; rw [e1]; omega

/-- Each table's block is the whole table. -/
theorem iblk2_apply (c : Dev nD) (t : Fin cfg0.N) (k : Fin 128) (q : Fin 512) :
    (iblk m c 2 t : Vec Ideal S128x512 .bf16) (ix2 k q) = (V m c main_v8 : S128x512.Idx → EReal) (ix2 k q) := by
  obtain ⟨-, -, -, -, e0, e1, -⟩ := idx_facts t
  unfold iblk
  rw [View.read_apply]
  show V m c main_v8 _ = V m c main_v8 _
  congr 1
  funext a
  apply Fin.ext
  match a with
  | ⟨0, _⟩ => show win0_2.index t 0 * 128 + 1 * k.val = k.val; rw [e0]; omega
  | ⟨1, _⟩ => show win0_2.index t 1 * 512 + 1 * q.val = q.val; rw [e1]; omega

theorem iblk3_apply (c : Dev nD) (t : Fin cfg0.N) (k : Fin 128) (q : Fin 512) :
    (iblk m c 3 t : Vec Ideal S128x512 .bf16) (ix2 k q) = (V m c main_v11 : S128x512.Idx → EReal) (ix2 k q) := by
  obtain ⟨-, -, -, -, -, -, e0, e1, -⟩ := idx_facts t
  unfold iblk
  rw [View.read_apply]
  show V m c main_v11 _ = V m c main_v11 _
  congr 1
  funext a
  apply Fin.ext
  match a with
  | ⟨0, _⟩ => show win0_3.index t 0 * 128 + 1 * k.val = k.val; rw [e0]; omega
  | ⟨1, _⟩ => show win0_3.index t 1 * 512 + 1 * q.val = q.val; rw [e1]; omega

theorem iblk4_apply (c : Dev nD) (t : Fin cfg0.N) (k : Fin 128) (q : Fin 512) :
    (iblk m c 4 t : Vec Ideal S128x512 .bf16) (ix2 k q) = (V m c main_v12 : S128x512.Idx → EReal) (ix2 k q) := by
  obtain ⟨-, -, -, -, -, -, -, -, e0, e1, -⟩ := idx_facts t
  unfold iblk
  rw [View.read_apply]
  show V m c main_v12 _ = V m c main_v12 _
  congr 1
  funext a
  apply Fin.ext
  match a with
  | ⟨0, _⟩ => show win0_4.index t 0 * 128 + 1 * k.val = k.val; rw [e0]; omega
  | ⟨1, _⟩ => show win0_4.index t 1 * 512 + 1 * q.val = q.val; rw [e1]; omega

theorem iblk5_apply (c : Dev nD) (t : Fin cfg0.N) (k : Fin 128) (q : Fin 512) :
    (iblk m c 5 t : Vec Ideal S128x512 .bf16) (ix2 k q) = (V m c main_v15 : S128x512.Idx → EReal) (ix2 k q) := by
  obtain ⟨-, -, -, -, -, -, -, -, -, -, e0, e1, -⟩ := idx_facts t
  unfold iblk
  rw [View.read_apply]
  show V m c main_v15 _ = V m c main_v15 _
  congr 1
  funext a
  apply Fin.ext
  match a with
  | ⟨0, _⟩ => show win0_5.index t 0 * 128 + 1 * k.val = k.val; rw [e0]; omega
  | ⟨1, _⟩ => show win0_5.index t 1 * 512 + 1 * q.val = q.val; rw [e1]; omega

/-- The flattened arrays are the arguments read along rows b * 4096 + s. -/
theorem V_x_apply (c : Dev nD) (n : Fin 32768) (q : Fin 1024) :
    (V m c main_v0 : S32768x1024.Idx → EReal) (ix2 n q)
      = m ((c : Thread nD τ).loc main_arg0) (ix3 (⟨n.val / 4096, by omega⟩ : Fin 8) (⟨n.val % 4096, by omega⟩ : Fin 4096) q) := by
  rw [V_x]
  exact shapeCast_apply (s := S8x4096x1024) (t := S32768x1024) _ _ (ix2 n q) _ (by
    rw [Shape.rowMajor_val_three, Shape.rowMajor_val_two]
    show (n.val / 4096 * 4096 + n.val % 4096) * 1024 + q.val = n.val * 1024 + q.val
    omega)

theorem V_boxes_apply (c : Dev nD) (n : Fin 32768) (j : Fin 4) :
    (V m c main_v1 : S32768x4.Idx → EReal) (ix2 n j)
      = m ((c : Thread nD τ).loc main_arg1) (ix3 (⟨n.val / 4096, by omega⟩ : Fin 8) (⟨n.val % 4096, by omega⟩ : Fin 4096) j) := by
  rw [V_boxes]
  exact shapeCast_apply (s := S8x4096x4) (t := S32768x4) _ _ (ix2 n j) _ (by
    rw [Shape.rowMajor_val_three, Shape.rowMajor_val_two]
    show (n.val / 4096 * 4096 + n.val % 4096) * 4 + j.val = n.val * 4 + j.val
    omega)

/-- The kernel's flat result: G read along rows b * 4096 + s. -/
def GK (c : Dev nD) : S32768x1024.Idx → EReal := fun i =>
  Spec.Gc (m ((c : Thread nD τ).loc main_arg0)) (m ((c : Thread nD τ).loc main_arg1))
    (m ((c : Thread nD τ).loc main_arg2)) (m ((c : Thread nD τ).loc main_arg3))
    (⟨(i 0).val / 4096, by have h : (i 0).val < 32768 := (i 0).isLt; omega⟩ : Fin 8)
    (⟨(i 0).val % 4096, by omega⟩ : Fin 4096) (⟨(i 1).val, (i 1).isLt⟩ : Fin 1024)

/-- The tables being real. -/
abbrev TablesReal (c : Dev nD) : Prop :=
  (∀ i, ∃ t : ℝ, m ((c : Thread nD τ).loc main_arg2) i = (t : EReal)) ∧ (∀ i, ∃ t : ℝ, m ((c : Thread nD τ).loc main_arg3) i = (t : EReal))

/-- What point t leaves at entry y of its block is the flat result at row 2048 t + y0. -/
theorem point_value (c : Dev nD) (hfin : TablesReal m c) (t : Fin cfg0.N) (r : Fin 2048) (q : Fin 1024) (n : Fin 32768)
    (hn : n.val = 2048 * t.val + r.val) :
    out0_6 (F := Ideal) (iblk m c 0 t) (iblk m c 1 t) (iblk m c 2 t) (iblk m c 3 t) (iblk m c 4 t) (iblk m c 5 t) (ix2 r q)
      = GK m c (ix2 n q) := by
  refine (KernelPay.out0_6_apply (iblk m c 0 t) (iblk m c 1 t) (iblk m c 2 t) (iblk m c 3 t) (iblk m c 4 t) (iblk m c 5 t) (ix2 r q)).trans ?_
  refine (KernelPay.blockOut_eq (iblk m c 0 t) (iblk m c 1 t) (iblk m c 2 t) (iblk m c 3 t) (iblk m c 4 t) (iblk m c 5 t)
    (m ((c : Thread nD τ).loc main_arg2)) (m ((c : Thread nD τ).loc main_arg3)) hfin.1 hfin.2
    (fun k q => (iblk2_apply m c t k q).trans ((congrFun (V_hh m c) _).trans ((hi_apply _ _).trans (hostPad_apply _ k q))))
    (fun k q => (iblk3_apply m c t k q).trans ((congrFun (V_hl m c) _).trans ((lo_apply _ _).trans (by rw [hostPad_apply]))))
    (fun k q => (iblk4_apply m c t k q).trans ((congrFun (V_wh m c) _).trans ((hi_apply _ _).trans (hostPad_apply _ k q))))
    (fun k q => (iblk5_apply m c t k q).trans ((congrFun (V_wl m c) _).trans ((lo_apply _ _).trans (by rw [hostPad_apply]))))
    r q).trans ?_
  rw [iblk1_apply m c t r q n hn, iblk0_apply m c t r 0 n hn, iblk0_apply m c t r 1 n hn,
    iblk0_apply m c t r 2 n hn, iblk0_apply m c t r 3 n hn, V_x_apply, V_boxes_apply, V_boxes_apply, V_boxes_apply,
    V_boxes_apply]
  rfl

/-- What point t writes back is block t of the flat result. -/
theorem flushed_eq (c : Dev nD) (hfin : TablesReal m c) (t : Fin cfg0.N) :
    (dats m 0 c).flushed 6 t = ((cfg0.win 6).blk t).view.read (Elt Ideal) (GK m c) := by
  show (cfg0.win 6).cut (grid0.coords t) ((dats m 0 c).after 6 t) = _
  rw [after0_6]
  funext y
  obtain ⟨r, q, rfl⟩ : ∃ (r : Fin 2048) (q : Fin 1024), y = ix2 r q := ⟨y 0, y 1, eq_ix2 y⟩
  have ht : t.val < 16 := by have h1 := t.isLt; have h2 : cfg0.N = 16 := N16; omega
  have hr : r.val < 2048 := r.isLt
  obtain ⟨-, -, -, -, -, -, -, -, -, -, -, -, e0, e1⟩ := idx_facts t
  have hemb : ((cfg0.win 6).blk t).view.emb (ix2 r q) = ix2 (⟨2048 * t.val + r.val, by omega⟩ : Fin 32768) q := by
    funext a
    apply Fin.ext
    match a with
    | ⟨0, _⟩ => show win0_6.index t 0 * 2048 + 1 * r.val = 2048 * t.val + r.val; rw [e0]; omega
    | ⟨1, _⟩ => show win0_6.index t 1 * 1024 + 1 * q.val = q.val; rw [e1]; omega
  show out0_6 (F := Ideal) (iblk m c 0 t) (iblk m c 1 t) (iblk m c 2 t) (iblk m c 3 t) (iblk m c 4 t) (iblk m c 5 t) (ix2 r q)
    = GK m c (((cfg0.win 6).blk t).view.emb (ix2 r q))
  rw [hemb]
  exact point_value m c hfin t r q _ rfl

/-- An index of the flat result is in point t's block iff its coordinates are in the block's ranges. -/
theorem mem_blk (t : Fin cfg0.N) (i : S32768x1024.Idx) :
    i ∈ ((cfg0.win 6).blk t).view.set ↔ ∀ a : Fin 2, win0_6.index t a * S2048x1024.size a ≤ (i a).val
      ∧ (i a).val < win0_6.index t a * S2048x1024.size a + S2048x1024.size a := by
  show i ∈ ((View.whole main_v16).slice (win0_6.rect t)).set ↔ _
  rw [View.set_slice_whole, Rect.mem_set_unit]
  exact Iff.rfl

/-- Every row lies in the block of the point its number divided by 2048 names. -/
theorem cover (i : S32768x1024.Idx) :
    ∃ t : Fin cfg0.N, (cfg0.win 6).flush t = true ∧ i ∈ ((cfg0.win 6).blk t).view.set := by
  have h0 : (i 0).val < 32768 := (i 0).isLt
  have h1 : (i 1).val < 1024 := (i 1).isLt
  refine ⟨⟨(i 0).val / 2048, by have hN := N_0; have hN' : cfg0.N = 16 := N16; omega⟩, flush0_6 _, ?_⟩
  rw [mem_blk]
  obtain ⟨-, -, -, -, -, -, -, -, -, -, -, -, e0, e1⟩ := idx_facts ⟨(i 0).val / 2048, by have hN := N_0; have hN' : cfg0.N = 16 := N16; omega⟩
  have e0' : win0_6.index ⟨(i 0).val / 2048, by have hN := N_0; have hN' : cfg0.N = 16 := N16; omega⟩ (0 : Fin 2) = (i 0).val / 2048 := e0
  intro a
  match a with
  | ⟨0, _⟩ =>
    show win0_6.index _ (0 : Fin 2) * 2048 ≤ (i 0).val ∧ (i 0).val < win0_6.index _ (0 : Fin 2) * 2048 + 2048
    rw [e0']; omega
  | ⟨1, _⟩ =>
    show win0_6.index _ (1 : Fin 2) * 1024 ≤ (i 1).val ∧ (i 1).val < win0_6.index _ (1 : Fin 2) * 1024 + 1024
    rw [e1]; omega

/-- The flat result after the region. -/
theorem final (c : Dev nD) (hfin : TablesReal m c) : (dats m 0 c).arrAt 6 cfg0.N = GK m c :=
  (dats m 0 c).arrAt_eq_of_cover 6 (GK m c) (fun t _ => flushed_eq m c hfin t) cover

set_option maxRecDepth 8192 in
/-- After the region the host gives the flat result back its leading axes. -/
theorem tail_eq (c : Dev nD) (hfin : TablesReal m c) :
    Pipeline.afterTail₀ cfgs (dats m) 0 (V0 m) [hostOps1] c main_v17
      = Spec.G (m ((c : Thread nD τ).loc main_arg0)) (m ((c : Thread nD τ).loc main_arg1))
          (m ((c : Thread nD τ).loc main_arg2)) (m ((c : Thread nD τ).loc main_arg3)) := by
  have hw := Pipeline.withArrays_arr spec0 launch0.win.arr_inj c (V0 m c) (fun w => (dats m 0 c).arrAt w cfg0.N) 6
  unfold Pipeline.afterTail₀
  show StableHlo.after hostOps1 _ (Proc.devRef .tc main_v17) = _
  after_results
  funext j
  obtain ⟨b, s, q, rfl⟩ : ∃ (b : Fin 8) (s : Fin 4096) (q : Fin 1024), j = ix3 b s q := ⟨j 0, j 1, j 2, eq_ix3 j⟩
  have hb := b.isLt
  have hs := s.isLt
  refine (shapeCast_apply (s := S32768x1024) (t := S8x4096x1024) _ shapeCasts_S32768x1024_S8x4096x1024 (ix3 b s q)
    (ix2 (⟨b.val * 4096 + s.val, by omega⟩ : Fin 32768) q) (by
      rw [Shape.rowMajor_val_two, Shape.rowMajor_val_three]
      show (b.val * 4096 + s.val) * 1024 + q.val = (b.val * 4096 + s.val) * 1024 + q.val
      rfl)).trans ?_
  refine (congrFun (hw.trans (final m c hfin)) _).trans ?_
  show Spec.Gc _ _ _ _ _ _ _ = Spec.Gc _ _ _ _ b s q
  congr 1
  · exact Fin.ext (by show (b.val * 4096 + s.val) / 4096 = b.val; omega)
  · exact Fin.ext (by show (b.val * 4096 + s.val) % 4096 = s.val; omega)

/-- The kernel's run, read: the result array ends at G of the arguments, the arguments unchanged. -/
theorem run (hfin : ∀ c, TablesReal m c) :
    θ_run defs (onTc (τ := τ) (main (F := Ideal))) ⟨m, fun _ => 0, ρ⟩ fun r => ∀ c : Dev nD,
      r.2.mem ((c.tc : Thread nD τ).loc main_v17)
        = Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v17 (Pipeline.mem_restRefs_of main_v17 (by decide) (by decide))).trans (tail_eq m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelArr

end
-- ==== Proof.RefRun.lean ====
/-
  The reference program as a straight line of sixty host operations, and its run.

  Every weakly fair execution of the reference terminates, leaves the four argument arrays as they were, and leaves in
  the result array the sum of the first argument with the concatenation, along the last axis, of two gathered arrays:
  rows of the height table at the row numbers the y-centres name, and rows of the width table at the row numbers the
  x-centres name. The first fifty-eight operations compute the two gathered arrays; the last two join and add them, and
  are read off by hand so that the two gathered arrays stay named.
-/
import proofs.«144803_j3418793967837_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to and including the two gathers (the clamping function's operations stand at its two call
    sites). -/
abbrev pre : List (HloOp τ sig (Elt F)) :=
  [
    unary main_arg1 main_v0 ((extractStridedSlice S8x4096x1 ![0, 0, 0] · slices_S8x4096x4_S8x4096x1_0_0_0) : (⟨S8x4096x4, .f32⟩ : BufTy).Contents (Elt F) → (⟨S8x4096x1, .f32⟩ : BufTy).Contents (Elt F)),
    reshape main_v0 main_v1 rfl shapeCasts_S8x4096x1_S8x4096,
    unary main_arg1 main_v2 ((extractStridedSlice S8x4096x1 ![0, 0, 2] · slices_S8x4096x4_S8x4096x1_0_0_2) : (⟨S8x4096x4, .f32⟩ : BufTy).Contents (Elt F) → (⟨S8x4096x1, .f32⟩ : BufTy).Contents (Elt F)),
    reshape main_v2 main_v3 rfl shapeCasts_S8x4096x1_S8x4096,
    binary main_v1 main_v3 main_v4 (addf : (⟨S8x4096, .f32⟩ : BufTy).Contents (Elt F) → (⟨S8x4096, .f32⟩ : BufTy).Contents (Elt F) → (⟨S8x4096, .f32⟩ : BufTy).Contents (Elt F)),
    nullary main_cst (constant S_ .f32 0x3F000000#32),
    unary main_cst main_v5 (broadcastInDim S8x4096 ![] bcast_S_S8x4096 : (⟨S_, .f32⟩ : BufTy).Contents (Elt F) → (⟨S8x4096, .f32⟩ : BufTy).Contents (Elt F)),
    binary main_v4 main_v5 main_v6 (mulf : (⟨S8x4096, .f32⟩ : BufTy).Contents (Elt F) → (⟨S8x4096, .f32⟩ : BufTy).Contents (Elt F) → (⟨S8x4096, .f32⟩ : BufTy).Contents (Elt F)),
    nullary main_cst_0 (constant S_ .f32 0x42C60000#32),
    unary main_cst_0 main_v7 (broadcastInDim S8x4096 ![] bcast_S_S8x4096 : (⟨S_, .f32⟩ : BufTy).Contents (Elt F) → (⟨S8x4096, .f32⟩ : BufTy).Contents (Elt F)),
    binary main_v6 main_v7 main_v8 (mulf : (⟨S8x4096, .f32⟩ : BufTy).Contents (Elt F) → (⟨S8x4096, .f32⟩ : BufTy).Contents (Elt F) → (⟨S8x4096, .f32⟩ : BufTy).Contents (Elt F)),
    unary main_v8 main_v9 (fptosi 32 : (⟨S8x4096, .f32⟩ : BufTy).Contents (Elt F) → (⟨S8x4096, .i32⟩ : BufTy).Contents (Elt F)),
    unary main_arg1 main_v10 ((extractStridedSlice S8x4096x1 ![0, 0, 1] · slices_S8x4096x4_S8x4096x1_0_0_1) : (⟨S8x4096x4, .f32⟩ : BufTy).Contents (Elt F) → (⟨S8x4096x1, .f32⟩ : BufTy).Contents (Elt F)),
    reshape main_v10 main_v11 rfl shapeCasts_S8x4096x1_S8x4096,
    unary main_arg1 main_v12 ((extractStridedSlice S8x4096x1 ![0, 0, 3] · slices_S8x4096x4_S8x4096x1_0_0_3) : (⟨S8x4096x4, .f32⟩ : BufTy).Contents (Elt F) → (⟨S8x4096x1, .f32⟩ : BufTy).Contents (Elt F)),
    reshape main_v12 main_v13 rfl shapeCasts_S8x4096x1_S8x4096,
    binary main_v11 main_v13 main_v14 (addf : (⟨S8x4096, .f32⟩ : BufTy).Contents (Elt F) → (⟨S8x4096, .f32⟩ : BufTy).Contents (Elt F) → (⟨S8x4096, .f32⟩ : BufTy).Contents (Elt F)),
    nullary main_cst_1 (constant S_ .f32 0x3F000000#32),
    unary main_cst_1 main_v15 (broadcastInDim S8x4096 ![] bcast_S_S8x4096 : (⟨S_, .f32⟩ : BufTy).Contents (Elt F) → (⟨S8x4096, .f32⟩ : BufTy).Contents (Elt F)),
    binary main_v14 main_v15 main_v16 (mulf : (⟨S8x4096, .f32⟩ : BufTy).Contents (Elt F) → (⟨S8x4096, .f32⟩ : BufTy).Contents (Elt F) → (⟨S8x4096, .f32⟩ : BufTy).Contents (Elt F)),
    nullary main_cst_2 (constant S_ .f32 0x42C60000#32),
    unary main_cst_2 main_v17 (broadcastInDim S8x4096 ![] bcast_S_S8x4096 : (⟨S_, .f32⟩ : BufTy).Contents (Elt F) → (⟨S8x4096, .f32⟩ : BufTy).Contents (Elt F)),
    binary main_v16 main_v17 main_v18 (mulf : (⟨S8x4096, .f32⟩ : BufTy).Contents (Elt F) → (⟨S8x4096, .f32⟩ : BufTy).Contents (Elt F) → (⟨S8x4096, .f32⟩ : BufTy).Contents (Elt F)),
    unary main_v18 main_v19 (fptosi 32 : (⟨S8x4096, .f32⟩ : BufTy).Contents (Elt F) → (⟨S8x4096, .i32⟩ : BufTy).Contents (Elt F)),
    nullary main_c (constantI S_ 32 0#32),
    nullary main_c_3 (constantI S_ 32 99#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8x4096, .i32⟩) main_call0_v1) (broadcastInDim S8x4096 ![] bcast_S_S8x4096),
    TRef.binary (TRef.of (T := ⟨S8x4096, .i32⟩) main_call0_v1) (TRef.of (T := ⟨S8x4096, .i32⟩) main_v9) (TRef.of (T := ⟨S8x4096, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S8x4096, .i32⟩) main_call0_v4) (broadcastInDim S8x4096 ![] bcast_S_S8x4096),
    TRef.binary (TRef.of (T := ⟨S8x4096, .i32⟩) main_call0_v4) (TRef.of (T := ⟨S8x4096, .i32⟩) main_call0_v2) (TRef.of (T := ⟨S8x4096, .i32⟩) main_v20) minsi,
    nullary main_c_4 (constantI S_ 32 0#32),
    nullary main_c_5 (constantI S_ 32 99#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S8x4096, .i32⟩) main_call1_v1) (broadcastInDim S8x4096 ![] bcast_S_S8x4096),
    TRef.binary (TRef.of (T := ⟨S8x4096, .i32⟩) main_call1_v1) (TRef.of (T := ⟨S8x4096, .i32⟩) main_v19) (TRef.of (T := ⟨S8x4096, .i32⟩) main_call1_v2) maxsi,
    TRef.unary (TRef.of (T := ⟨S_, .i32⟩) main_c_5) (TRef.of (T := ⟨S_, .i32⟩) main_call1_v3) id,
    TRef.unary (TRef.of (T := ⟨S_, .i32⟩) main_call1_v3) (TRef.of (T := ⟨S8x4096, .i32⟩) main_call1_v4) (broadcastInDim S8x4096 ![] bcast_S_S8x4096),
    TRef.binary (TRef.of (T := ⟨S8x4096, .i32⟩) main_call1_v4) (TRef.of (T := ⟨S8x4096, .i32⟩) main_call1_v2) (TRef.of (T := ⟨S8x4096, .i32⟩) main_v21) minsi,
    nullary main_c_6 (constantI S_ 32 0#32),
    unary main_c_6 main_v22 (broadcastInDim S8x4096 ![] bcast_S_S8x4096 : (⟨S_, .i32⟩ : BufTy).Contents (Elt F) → (⟨S8x4096, .i32⟩ : BufTy).Contents (Elt F)),
    binary main_v21 main_v22 main_v23 (cmpi .slt : (⟨S8x4096, .i32⟩ : BufTy).Contents (Elt F) → (⟨S8x4096, .i32⟩ : BufTy).Contents (Elt F) → (⟨S8x4096, .i1⟩ : BufTy).Contents (Elt F)),
    nullary main_c_7 (constantI S_ 32 100#32),
    unary main_c_7 main_v24 (broadcastInDim S8x4096 ![] bcast_S_S8x4096 : (⟨S_, .i32⟩ : BufTy).Contents (Elt F) → (⟨S8x4096, .i32⟩ : BufTy).Contents (Elt F)),
    binary main_v21 main_v24 main_v25 (addi : (⟨S8x4096, .i32⟩ : BufTy).Contents (Elt F) → (⟨S8x4096, .i32⟩ : BufTy).Contents (Elt F) → (⟨S8x4096, .i32⟩ : BufTy).Contents (Elt F)),
    ternary main_v23 main_v25 main_v21 main_v26 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
    unary main_v26 main_v27 (broadcastInDim S8x4096x1 ![0, 1] bcast_S8x4096_S8x4096x1_0_1 : (⟨S8x4096, .i32⟩ : BufTy).Contents (Elt F) → (⟨S8x4096x1, .i32⟩ : BufTy).Contents (Elt F)),
    binary main_arg2 main_v27 main_v28 ((fun x i => Host.gather gather_S100x512_S8x4096x1_S8x4096x512_2_0_n_n_0_2_1512 x i) : (⟨S100x512, .f32⟩ : BufTy).Contents (Elt F) → (⟨S8x4096x1, .i32⟩ : BufTy).Contents (Elt F) → (⟨S8x4096x512, .f32⟩ : BufTy).Contents (Elt F)),
    nullary main_c_8 (constantI S_ 32 0#32),
    unary main_c_8 main_v29 (broadcastInDim S8x4096 ![] bcast_S_S8x4096 : (⟨S_, .i32⟩ : BufTy).Contents (Elt F) → (⟨S8x4096, .i32⟩ : BufTy).Contents (Elt F)),
    binary main_v20 main_v29 main_v30 (cmpi .slt : (⟨S8x4096, .i32⟩ : BufTy).Contents (Elt F) → (⟨S8x4096, .i32⟩ : BufTy).Contents (Elt F) → (⟨S8x4096, .i1⟩ : BufTy).Contents (Elt F)),
    nullary main_c_9 (constantI S_ 32 100#32),
    unary main_c_9 main_v31 (broadcastInDim S8x4096 ![] bcast_S_S8x4096 : (⟨S_, .i32⟩ : BufTy).Contents (Elt F) → (⟨S8x4096, .i32⟩ : BufTy).Contents (Elt F)),
    binary main_v20 main_v31 main_v32 (addi : (⟨S8x4096, .i32⟩ : BufTy).Contents (Elt F) → (⟨S8x4096, .i32⟩ : BufTy).Contents (Elt F) → (⟨S8x4096, .i32⟩ : BufTy).Contents (Elt F)),
    ternary main_v30 main_v32 main_v20 main_v33 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
    unary main_v33 main_v34 (broadcastInDim S8x4096x1 ![0, 1] bcast_S8x4096_S8x4096x1_0_1 : (⟨S8x4096, .i32⟩ : BufTy).Contents (Elt F) → (⟨S8x4096x1, .i32⟩ : BufTy).Contents (Elt F)),
    binary main_arg3 main_v34 main_v35 ((fun x i => Host.gather gather_S100x512_S8x4096x1_S8x4096x512_2_0_n_n_0_2_1512 x i) : (⟨S100x512, .f32⟩ : BufTy).Contents (Elt F) → (⟨S8x4096x1, .i32⟩ : BufTy).Contents (Elt F) → (⟨S8x4096x512, .f32⟩ : BufTy).Contents (Elt F)) ]

/-- The concatenation of the two gathered arrays along the last axis. -/
abbrev catOp : HloOp τ sig (Elt F) :=
  binary main_v28 main_v35 main_v36 ((fun a b => concatenate S8x4096x1024 2 [⟨S8x4096x512, a⟩, ⟨S8x4096x512, b⟩] concatenates_S8x4096x512_S8x4096x512_S8x4096x1024_d2) : (⟨S8x4096x512, .f32⟩ : BufTy).Contents (Elt F) → (⟨S8x4096x512, .f32⟩ : BufTy).Contents (Elt F) → (⟨S8x4096x1024, .f32⟩ : BufTy).Contents (Elt F))

/-- The sum with the first argument. -/
abbrev addOp : HloOp τ sig (Elt F) :=
  binary main_arg0 main_v36 main_v37 (addf : (⟨S8x4096x1024, .f32⟩ : BufTy).Contents (Elt F) → (⟨S8x4096x1024, .f32⟩ : BufTy).Contents (Elt F) → (⟨S8x4096x1024, .f32⟩ : BufTy).Contents (Elt F))

/-- All sixty, in order. -/
abbrev ops : List (HloOp τ sig (Elt F)) := pre ++ [catOp, addOp]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., unary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- A line of operations run after another: the second line starts from what the first leaves. -/
theorem after_append (l₁ l₂ : List (HloOp τ sig (Elt F))) (V : Valuation τ sig (Elt F)) :
    after (l₁ ++ l₂) V = after l₂ (after l₁ V) := by
  induction l₁ generalizing V with
  | nil => rfl
  | cons a l ih => exact ih _

/-- The last two operations act on what the first fifty-eight leave. -/
theorem after_ops (V : Valuation τ sig (Elt F)) :
    after (ops (F := F)) V = addOp.result (catOp.result (after pre V)) := by
  rw [after_append]; rfl

/-- What the result buffer holds after all sixty operations, from what three buffers hold after the first
    fifty-eight. -/
theorem after_result (V : Valuation τ sig (Elt F)) :
    after (ops (F := F)) V (Proc.devRef .tc main_v37)
      = addf (after pre V (Proc.devRef .tc main_arg0))
          (concatenate S8x4096x1024 2 [⟨S8x4096x512, after pre V (Proc.devRef .tc main_v28)⟩,
            ⟨S8x4096x512, after pre V (Proc.devRef .tc main_v35)⟩] concatenates_S8x4096x512_S8x4096x512_S8x4096x1024_d2) := by
  rw [after_ops, binary_result, binary_result_ne]
  · rw [binary_result]
  · decide

/-- A buffer the last two operations do not write holds after all sixty what it held after the first fifty-eight. -/
theorem after_kept (V : Valuation τ sig (Elt F)) (b : Ref sig .tc) (h36 : b ≠ main_v36) (h37 : b ≠ main_v37) :
    after (ops (F := F)) V (Proc.devRef .tc b) = after pre V (Proc.devRef .tc b) := by
  rw [after_ops, binary_result_ne (h := h37), binary_result_ne (h := h36)]

set_option maxRecDepth 8192 in
set_option maxHeartbeats 2000000 in
/-- The first fifty-eight operations write no argument array. -/
theorem pre_args (m : (ℓ : Loc nD τ sig) → Buf (Elt F) ℓ) (c : Dev nD) :
    after (pre (F := F)) (launchContents m c) (Proc.devRef .tc main_arg0) = m ((c.tc : Thread nD τ).loc main_arg0)
    ∧ after (pre (F := F)) (launchContents m c) (Proc.devRef .tc main_arg1) = m ((c.tc : Thread nD τ).loc main_arg1)
    ∧ after (pre (F := F)) (launchContents m c) (Proc.devRef .tc main_arg2) = m ((c.tc : Thread nD τ).loc main_arg2)
    ∧ after (pre (F := F)) (launchContents m c) (Proc.devRef .tc main_arg3) = m ((c.tc : Thread nD τ).loc main_arg3) :=
  ⟨by after_results_simp <;> rfl, by after_results_simp <;> rfl, by after_results_simp <;> rfl, by after_results_simp <;> rfl⟩

/-- On every device, from any memory with zero counters: every weakly fair execution of the reference terminates with
    the result array at the sum of the first argument with the two gathered arrays joined, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = addf (m ((c.tc : Thread nD τ).loc main_arg0))
            (concatenate S8x4096x1024 2 [⟨S8x4096x512, after pre (launchContents m c) (Proc.devRef .tc main_v28)⟩,
              ⟨S8x4096x512, after pre (launchContents m c) (Proc.devRef .tc main_v35)⟩] concatenates_S8x4096x512_S8x4096x512_S8x4096x1024_d2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v37).trans ((after_result _).trans (by rw [(pre_args m c).1])),
      (h c main_arg0).trans ((after_kept _ main_arg0 (by decide) (by decide)).trans (pre_args m c).1),
      (h c main_arg1).trans ((after_kept _ main_arg1 (by decide) (by decide)).trans (pre_args m c).2.1),
      (h c main_arg2).trans ((after_kept _ main_arg2 (by decide) (by decide)).trans (pre_args m c).2.2.1),
      (h c main_arg3).trans ((after_kept _ main_arg3 (by decide) (by decide)).trans (pre_args m c).2.2.2)⟩)
    (run_seq scopedRefs_eq scopedSems_eq defs main (fun _ => ops) main_eq (fun _ => ops_sub) m ρ)

end Cert.RefRun

end
-- ==== Proof.LibGatherRows.lean ====
/-
  `stablehlo.gather` OF WHOLE ROWS of a rank-2 table at a rank-2 array of row numbers, read at an entry.

  What `table[idx]` of a table `table : [N, C]` at an integer array `idx : [R, S]` lowers to: a gather with
  offset_dims `[2]`, collapsed_slice_dims `[0]`, start_index_map `[0]`, slice_sizes `[1, C]` and
  index_vector_dim 2 over the row numbers as `[R, S, 1]`. Result element `(b, s, c)` is the table's entry in column
  `c` of the row whose number is `idx[b, s, 0]` read as a signed integer and clamped into `[0, N − 1]`, as
  StableHLO's gather clamps every start index so that the slice (here one whole row) fits in the operand.

  The operand index of a gather is, axis by axis, start + batching coordinate + offset coordinate. Here:
  on axis 0 (named by the start index map, collapsed) the start is the clamped row number and the other two are 0;
  on axis 1 (not named by the map, kept) the start and the batching coordinate are 0 and the offset coordinate is
  the result's coordinate on its one offset axis, axis 2.
-/
import Idealize.ShloMosaic.Lib.ValueIdx

noncomputable section

namespace Cert.LibGatherRows

open Idealize.ShloMosaic Idealize.ShloMosaic.ValueIdx

variable {α : Type}

/-- The dimension numbers of a gather of whole rows: operand `[N, C]`, start indices `[R, S, 1]`, result
    `[R, S, C]`; the result's axis 2 is the offset axis (it runs along the row), the operand's axis 0 is collapsed
    and is the one the start index names, a slice is one row `[1, C]`. Their conditions `wf` are decided on a
    program's literal shapes. -/
abbrev rowsDims (N C R S : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(b, s, c)`: the table's entry in column `c` of the row whose number is
    `idx[b, s, 0]`, read signed and clamped into `[0, N − 1]`. -/
theorem gather_rows_apply {N C R S w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (b : Fin R) (s : Fin S) (c : Fin C) :
    Host.gather (rowsDims N C R S wf) x idx (ix3 b s c)
      = x (ix2 ⟨min (idx (ix3 b s (0 : Fin 1))).toInt.toNat (N - 1), by omega⟩ c) := by
  unfold Host.gather
  congr 1
  funext a
  refine Fin.ext ?_
  match a with
  | ⟨0, _⟩ =>
    -- axis 0: the clamped row number; no batching coordinate, no offset coordinate (the axis is collapsed)
    show (rowsDims N C R S wf).start (ix3 b s c) idx 0 + (rowsDims N C R S wf).batchCoord (ix3 b s c) 0
      + (rowsDims N C R S wf).offCoord (ix3 b s c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R S wf).startIndexMap from List.mem_singleton.mpr rfl)]
    have hsi : (rowsDims N C R S wf).siIdx (ix3 b s c) ⟨List.idxOf (0 : Fin 2) (rowsDims N C R S wf).startIndexMap,
        List.idxOf_lt_length_iff.2 (List.mem_singleton.mpr rfl)⟩ = ix3 b s (0 : Fin 1) := by
      funext e; refine Fin.ext ?_
      match e with
      | ⟨0, _⟩ => rfl
      | ⟨1, _⟩ => rfl
      | ⟨2, _⟩ => rfl
    rw [hsi]
    rfl
  | ⟨1, _⟩ =>
    -- axis 1: start 0 (the start index map does not name it), no batching coordinate, and the offset coordinate is
    -- the result's coordinate on its offset axis
    show (rowsDims N C R S wf).start (ix3 b s c) idx 1 + (rowsDims N C R S wf).batchCoord (ix3 b s c) 1
      + (rowsDims N C R S wf).offCoord (ix3 b s c) 1 = c.val
    rw [GatherDims.batchCoord_eq_zero _ _ _ List.not_mem_nil]
    have hst : (rowsDims N C R S wf).start (ix3 b s c) idx 1 = 0 := by
      unfold GatherDims.start
      rw [dif_neg (show (1 : Fin 2) ∉ ([0] : List (Fin 2)) by decide)]
    rw [hst]
    simp only [Nat.add_zero, Nat.zero_add]
    rfl

/-- The same with the row number known: when `idx[b, s, 0]` read signed is `r` with `r < N`, no clamping takes
    place and the gather reads the table at `(r, c)`. -/
theorem gather_rows_apply_of_lt {N C R S w : Nat}
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (b : Fin R) (s : Fin S) (c : Fin C)
    (r : Nat) (hr : r < N) (hidx : (idx (ix3 b s (0 : Fin 1))).toInt = (r : Int)) :
    Host.gather (rowsDims N C R S wf) x idx (ix3 b s c) = x (ix2 ⟨r, hr⟩ c) := by
  rw [gather_rows_apply (Nat.lt_of_le_of_lt (Nat.zero_le r) hr) wf x idx b s c]
  congr 2
  refine Fin.ext ?_
  show min (idx (ix3 b s (0 : Fin 1))).toInt.toNat (N - 1) = r
  rw [hidx, Int.toNat_natCast]
  omega

end Cert.LibGatherRows

end
-- ==== Proof.RefValue.lean ====
/-
  The reference computes G.

  The first fifty-eight operations of the reference leave, in the two gathered buffers, rows of the two tables: at
  (b, s, c) the height table's entry (row, c), where row is the clamped truncated scaled y-centre of box (b, s), and
  likewise the width table's at the x-centre. Each step is read at an index: a slice and a reshape pick one box
  coordinate, the clamp is the minimum with 99 of the maximum with 0, the wrap-around of negative row numbers does
  nothing to a number in [0, 99], and the gather reads the table at that row. The concatenation takes the first array
  for columns below 512 and the second, shifted, for the others.
-/
import proofs.«144803_j3418793967837_2_alg».proof.Proof.RefRun
import proofs.«144803_j3418793967837_2_alg».proof.Proof.Spec
import proofs.«144803_j3418793967837_2_alg».proof.Proof.LibGatherRows
import Idealize.ShloMosaic.Lib.Pipeline.Value
import Idealize.ShloMosaic.Lib.ValueIdx
import Idealize.ShloMosaic.Lib.ValueLayout

noncomputable section

namespace Cert.RefValue

open Cert.ReferenceIdeal Cert.ReferenceIdeal.Gen Idealize.ShloMosaic Idealize.ShloMosaic.TcCoe Idealize.SL.Sem
open Idealize.ShloMosaic.StableHlo Idealize.ShloMosaic.ValueIdx

/-- The row numbers the y-centres name, one per box: coordinates 1 and 3 added, halved, scaled by 99, truncated and
    clamped. -/
def wordY (bx : FVec Ideal S8x4096x4 .f32) : IVec S8x4096 32 :=
  minsi (broadcastInDim S8x4096 ![] bcast_S_S8x4096 (constantI S_ 32 99#32))
    (maxsi (broadcastInDim S8x4096 ![] bcast_S_S8x4096 (constantI S_ 32 0#32))
      (fptosi 32 (mulf (mulf
        (addf (shapeCast S8x4096 (extractStridedSlice S8x4096x1 ![0, 0, 1] bx slices_S8x4096x4_S8x4096x1_0_0_1) shapeCasts_S8x4096x1_S8x4096)
          (shapeCast S8x4096 (extractStridedSlice S8x4096x1 ![0, 0, 3] bx slices_S8x4096x4_S8x4096x1_0_0_3) shapeCasts_S8x4096x1_S8x4096))
        (broadcastInDim S8x4096 ![] bcast_S_S8x4096 (constant S_ .f32 0x3F000000#32)))
        (broadcastInDim S8x4096 ![] bcast_S_S8x4096 (constant S_ .f32 0x42C60000#32)))))

/-- The row numbers the x-centres name: the same of coordinates 0 and 2. -/
def wordX (bx : FVec Ideal S8x4096x4 .f32) : IVec S8x4096 32 :=
  minsi (broadcastInDim S8x4096 ![] bcast_S_S8x4096 (constantI S_ 32 99#32))
    (maxsi (broadcastInDim S8x4096 ![] bcast_S_S8x4096 (constantI S_ 32 0#32))
      (fptosi 32 (mulf (mulf
        (addf (shapeCast S8x4096 (extractStridedSlice S8x4096x1 ![0, 0, 0] bx slices_S8x4096x4_S8x4096x1_0_0_0) shapeCasts_S8x4096x1_S8x4096)
          (shapeCast S8x4096 (extractStridedSlice S8x4096x1 ![0, 0, 2] bx slices_S8x4096x4_S8x4096x1_0_0_2) shapeCasts_S8x4096x1_S8x4096))
        (broadcastInDim S8x4096 ![] bcast_S_S8x4096 (constant S_ .f32 0x3F000000#32)))
        (broadcastInDim S8x4096 ![] bcast_S_S8x4096 (constant S_ .f32 0x42C60000#32)))))

/-- The start indices of a gather from row numbers: a negative number wrapped around by 100, then a unit axis added. -/
def startIdx (W : IVec S8x4096 32) : IVec S8x4096x1 32 :=
  broadcastInDim S8x4096x1 ![0, 1] bcast_S8x4096_S8x4096x1_0_1
    (select (cmpi .slt W (broadcastInDim S8x4096 ![] bcast_S_S8x4096 (constantI S_ 32 0#32)))
      (addi W (broadcastInDim S8x4096 ![] bcast_S_S8x4096 (constantI S_ 32 100#32))) W)

set_option maxRecDepth 8192 in
set_option maxHeartbeats 2000000 in
/-- The first gathered array: rows of the height table at the y-centres' row numbers. -/
theorem gathered_h (m : (ℓ : Loc nD τ sig) → Buf (Elt Ideal) ℓ) (c : Dev nD) :
    after (RefRun.pre (F := Ideal)) (launchContents m c) (Proc.devRef .tc main_v28)
      = Host.gather gather_S100x512_S8x4096x1_S8x4096x512_2_0_n_n_0_2_1512 (m ((c.tc : Thread nD τ).loc main_arg2))
          (startIdx (wordY (m ((c.tc : Thread nD τ).loc main_arg1)))) := by
  after_results_simp
  rfl

set_option maxRecDepth 8192 in
set_option maxHeartbeats 2000000 in
/-- The second: rows of the width table at the x-centres' row numbers. -/
theorem gathered_w (m : (ℓ : Loc nD τ sig) → Buf (Elt Ideal) ℓ) (c : Dev nD) :
    after (RefRun.pre (F := Ideal)) (launchContents m c) (Proc.devRef .tc main_v35)
      = Host.gather gather_S100x512_S8x4096x1_S8x4096x512_2_0_n_n_0_2_1512 (m ((c.tc : Thread nD τ).loc main_arg3))
          (startIdx (wordX (m ((c.tc : Thread nD τ).loc main_arg1)))) := by
  after_results_simp
  rfl

/-- A scalar spread over the boxes reads the scalar. -/
theorem bc {α : Type} (x : S_.Idx → α) (b : Fin 8) (s : Fin 4096) :
    broadcastInDim S8x4096 ![] bcast_S_S8x4096 x (ix2 b s) = x ix0 :=
  broadcastInDim_apply _ bcast_S_S8x4096 x _ ix0 (fun a => a.elim0)

/-- Coordinate o of box (b, s): the slice keeps that one coordinate and the reshape drops the unit axis. -/
theorem coord_apply (bx : FVec Ideal S8x4096x4 .f32) (o : Nat) (h : S8x4096x4.Slices ![0, 0, o] S8x4096x1) (j : Fin 4)
    (hj : j.val = o) (b : Fin 8) (s : Fin 4096) :
    shapeCast S8x4096 (extractStridedSlice S8x4096x1 ![0, 0, o] bx h) shapeCasts_S8x4096x1_S8x4096 (ix2 b s) = bx (ix3 b s j) := by
  refine (shapeCast_apply _ shapeCasts_S8x4096x1_S8x4096 (ix2 b s) (ix3 b s (0 : Fin 1)) (by
    rw [Shape.rowMajor_val_three, Shape.rowMajor_val_two]
    show (b.val * 4096 + s.val) * 1 + 0 = b.val * 4096 + s.val
    omega)).trans ?_
  exact extractStridedSlice_apply ![0, 0, o] bx h (ix3 b s (0 : Fin 1)) (ix3 b s j) (fun a => match a with
    | ⟨0, _⟩ => by show b.val = 0 + b.val; omega
    | ⟨1, _⟩ => by show s.val = 0 + s.val; omega
    | ⟨2, _⟩ => by show j.val = o + 0; omega)

theorem wordY_apply (bx : FVec Ideal S8x4096x4 .f32) (b : Fin 8) (s : Fin 4096) :
    wordY bx (ix2 b s) = Spec.cell (bx (ix3 b s (1 : Fin 4))) (bx (ix3 b s (3 : Fin 4))) := by
  unfold wordY
  simp only [minsi, maxsi, fptosi, mulf, addf]
  rw [bc, bc, bc, bc, coord_apply bx 1 _ 1 rfl, coord_apply bx 3 _ 3 rfl]
  rfl

theorem wordX_apply (bx : FVec Ideal S8x4096x4 .f32) (b : Fin 8) (s : Fin 4096) :
    wordX bx (ix2 b s) = Spec.cell (bx (ix3 b s (0 : Fin 4))) (bx (ix3 b s (2 : Fin 4))) := by
  unfold wordX
  simp only [minsi, maxsi, fptosi, mulf, addf]
  rw [bc, bc, bc, bc, coord_apply bx 0 _ 0 rfl, coord_apply bx 2 _ 2 rfl]
  rfl

/-- A row number is not negative. -/
theorem cell_not_neg (a b : EReal) : IntOp.cmpi .slt (Spec.cell a b) 0#32 = 0#1 := by
  refine eq_zero_of_ne_one fun h => ?_
  have := IntOp.cmpi_slt.1 h
  rw [Spec.cell_toInt] at this
  have h0 : (0#32 : BitVec 32).toInt = 0 := by decide
  omega

/-- So the wrap-around leaves it alone, and the start index read signed is the row number. -/
theorem startIdx_toInt (W : IVec S8x4096 32) (b : Fin 8) (s : Fin 4096) (a a' : EReal) (hW : W (ix2 b s) = Spec.cell a a') :
    (startIdx W (ix3 b s (0 : Fin 1))).toInt = ((Spec.row a a').val : Int) := by
  unfold startIdx
  rw [broadcastInDim_apply _ bcast_S8x4096_S8x4096x1_0_1 _ (ix3 b s (0 : Fin 1)) (ix2 b s) (fun ax => match ax with
    | ⟨0, _⟩ => by show b.val = if (8 : Nat) = 1 then 0 else b.val; rw [if_neg (by decide)]
    | ⟨1, _⟩ => by show s.val = if (4096 : Nat) = 1 then 0 else s.val; rw [if_neg (by decide)])]
  simp only [select, cmpi, addi]
  rw [hW, bc]
  show (Scalar.select (IntOp.cmpi .slt (Spec.cell a a') 0#32) _ (Spec.cell a a')).toInt = _
  rw [cell_not_neg, select_zero, Spec.cell_toInt]

/-- The first gathered array at (b, s, q). -/
theorem gathered_h_apply (m : (ℓ : Loc nD τ sig) → Buf (Elt Ideal) ℓ) (c : Dev nD) (b : Fin 8) (s : Fin 4096) (q : Fin 512) :
    (after (RefRun.pre (F := Ideal)) (launchContents m c) (Proc.devRef .tc main_v28) : S8x4096x512.Idx → EReal) (ix3 b s q)
      = m ((c.tc : Thread nD τ).loc main_arg2)
          (ix2 (Spec.row (m ((c.tc : Thread nD τ).loc main_arg1) (ix3 b s (1 : Fin 4))) (m ((c.tc : Thread nD τ).loc main_arg1) (ix3 b s (3 : Fin 4)))) q) := by
  rw [gathered_h]
  exact LibGatherRows.gather_rows_apply_of_lt _ _ _ b s q _ (Spec.row _ _).isLt
    (startIdx_toInt _ b s _ _ (wordY_apply _ b s))

/-- The second gathered array at (b, s, q). -/
theorem gathered_w_apply (m : (ℓ : Loc nD τ sig) → Buf (Elt Ideal) ℓ) (c : Dev nD) (b : Fin 8) (s : Fin 4096) (q : Fin 512) :
    (after (RefRun.pre (F := Ideal)) (launchContents m c) (Proc.devRef .tc main_v35) : S8x4096x512.Idx → EReal) (ix3 b s q)
      = m ((c.tc : Thread nD τ).loc main_arg3)
          (ix2 (Spec.row (m ((c.tc : Thread nD τ).loc main_arg1) (ix3 b s (0 : Fin 4))) (m ((c.tc : Thread nD τ).loc main_arg1) (ix3 b s (2 : Fin 4)))) q) := by
  rw [gathered_w]
  exact LibGatherRows.gather_rows_apply_of_lt _ _ _ b s q _ (Spec.row _ _).isLt
    (startIdx_toInt _ b s _ _ (wordX_apply _ b s))

/-- The reference's result is G of the arguments. -/
theorem result_eq_G (m : (ℓ : Loc nD τ sig) → Buf (Elt Ideal) ℓ) (c : Dev nD) :
    addf (F := Ideal) (φ := .f32) (m ((c.tc : Thread nD τ).loc main_arg0))
        (concatenate S8x4096x1024 2 [⟨S8x4096x512, after (RefRun.pre (F := Ideal)) (launchContents m c) (Proc.devRef .tc main_v28)⟩,
          ⟨S8x4096x512, after (RefRun.pre (F := Ideal)) (launchContents m c) (Proc.devRef .tc main_v35)⟩] concatenates_S8x4096x512_S8x4096x512_S8x4096x1024_d2)
      = Spec.G (m ((c.tc : Thread nD τ).loc main_arg0)) (m ((c.tc : Thread nD τ).loc main_arg1))
          (m ((c.tc : Thread nD τ).loc main_arg2)) (m ((c.tc : Thread nD τ).loc main_arg3)) := by
  funext j
  obtain ⟨b, s, q, rfl⟩ : ∃ (b : Fin 8) (s : Fin 4096) (q : Fin 1024), j = ix3 b s q := ⟨j 0, j 1, j 2, eq_ix3 j⟩
  show _ = Spec.Gc _ _ _ _ b s q
  rw [addf_apply]
  unfold Spec.Gc
  congr 1
  by_cases h : q.val < 512
  · rw [dif_pos h]
    refine (concatenate_pair_apply_left (s₁ := S8x4096x512) (s₂ := S8x4096x512) 2 _ _ _ (ix3 b s q) rfl (ix3 b s (⟨q.val, h⟩ : Fin 512)) (fun a => match a with
      | ⟨0, _⟩ => rfl
      | ⟨1, _⟩ => rfl
      | ⟨2, _⟩ => rfl)).trans ?_
    exact gathered_h_apply m c b s ⟨q.val, h⟩
  · rw [dif_neg h]
    refine (concatenate_pair_apply_right (s₁ := S8x4096x512) (s₂ := S8x4096x512) 2 _ _ _ (ix3 b s q) rfl rfl (ix3 b s (⟨q.val - 512, by omega⟩ : Fin 512))
      (fun a ha => match a, ha with
        | ⟨0, _⟩, _ => rfl
        | ⟨1, _⟩, _ => rfl
        | ⟨2, _⟩, ha => absurd rfl ha)
      (by show q.val - 512 + 512 = q.val; omega)).trans ?_
    exact gathered_w_apply m c b s ⟨q.val - 512, by omega⟩

end Cert.RefValue

end
-- ==== Proof.lean ====
/-
  The certificate: a kernel that adds to each row of an [8, 4096, 1024] input the rows of two positional tables its box
  centre names, against the reference that looks the rows up.

  The kernel multiplies rows of indicators into zero-padded copies of the tables and into the copies' differences with
  themselves; over the extended reals the products select the named rows, and the differences vanish because the
  precondition makes every table entry a real. The reference clamps the same truncated scaled centres and gathers the
  same rows. Both results are therefore one function of the arguments (Spec.G). The three frames are the generated
  frame runs of the two kernel programs and the reference's run with the result dropped; the idealization rewrote
  nothing, so there is nothing to preserve.
-/
import proofs.«144803_j3418793967837_2_alg».proof.Defs
import proofs.«144803_j3418793967837_2_alg».proof.Proof.Gen.Kernel
import proofs.«144803_j3418793967837_2_alg».proof.Proof.Gen.Kernel.Skeleton
import proofs.«144803_j3418793967837_2_alg».proof.Proof.Gen.Kernel.Launch
import proofs.«144803_j3418793967837_2_alg».proof.Proof.Gen.Kernel.Points
import proofs.«144803_j3418793967837_2_alg».proof.Proof.Gen.Kernel.Frame
import proofs.«144803_j3418793967837_2_alg».proof.Proof.Gen.KernelIdeal
import proofs.«144803_j3418793967837_2_alg».proof.Proof.Gen.KernelIdeal.Skeleton
import proofs.«144803_j3418793967837_2_alg».proof.Proof.Gen.KernelIdeal.Launch
import proofs.«144803_j3418793967837_2_alg».proof.Proof.Gen.KernelIdeal.Points
import proofs.«144803_j3418793967837_2_alg».proof.Proof.Gen.KernelIdeal.Frame
import proofs.«144803_j3418793967837_2_alg».proof.Proof.Gen.ReferenceIdeal
import proofs.«144803_j3418793967837_2_alg».proof.Proof.Gen.Pre_finite_inputs
import proofs.«144803_j3418793967837_2_alg».proof.Proof.Spec
import proofs.«144803_j3418793967837_2_alg».proof.Proof.Finite
import proofs.«144803_j3418793967837_2_alg».proof.Proof.KernelArr
import proofs.«144803_j3418793967837_2_alg».proof.Proof.RefRun
import proofs.«144803_j3418793967837_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.RefRun.run (F := Ideal) m ρ)

/-- Both programs end with the result at G of the arguments: the kernel because the precondition makes the tables
    real, the reference outright. -/
theorem algebraic : Cert.algebraic_KernelIdeal_ReferenceIdeal := by
  intro m ρ m' ρ' hpre hagree
  have hfin : ∀ c, Cert.KernelArr.TablesReal m c := fun c => Cert.Finite.tables_real _ _ _ _ (hpre c)
  refine ⟨_, Cert.KernelArr.run m ρ hfin, ?_⟩
  refine (θ_run Cert.ReferenceIdeal.defs _ _).mono (fun _ h c => ⟨(h c).1.trans ?_, (h c).2⟩)
    (Cert.RefRun.run (F := Ideal) m' ρ')
  rw [Cert.RefValue.result_eq_G m' c, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
